-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S200000x128 : Shape := ⟨2, ![200000, 128]⟩
abbrev S400000 : Shape := ⟨1, ![400000]⟩
abbrev S200000 : Shape := ⟨1, ![200000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S200000x128 : S_.BroadcastsInDim S200000x128 (![] : Fin 0 → Fin S200000x128.rank)
  reducesTo_S200000x128_S_d0_1 : S200000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : FVec F S400000x128 .f32) (main_arg2 : FVec F S200000x128 .f32) (main_arg3 : IVec S400000 32) (main_arg4 : IVec S200000 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S200000x128 .f32 := Host.absf main_arg2
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S400000x128 : Shape := ⟨2, ![400000, 128]⟩
abbrev S200000x128 : Shape := ⟨2, ![200000, 128]⟩
abbrev S400000 : Shape := ⟨1, ![400000]⟩
abbrev S200000 : Shape := ⟨1, ![200000]⟩
abbrev S384x128 : Shape := ⟨2, ![384, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S200000x1 : Shape := ⟨2, ![200000, 1]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 22
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S200000x128, .f32⟩
  | .hbm, ⟨3, _⟩ => ⟨S400000, .i32⟩
  | .hbm, ⟨4, _⟩ => ⟨S200000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S100000x128, .f32⟩
  | .hbm, ⟨15, _⟩ => ⟨S400000x1, .i32⟩
  | .hbm, ⟨16, _⟩ => ⟨S100000x128, .f32⟩
  | .hbm, ⟨17, _⟩ => ⟨S_, .f32⟩
  | .hbm, ⟨18, _⟩ => ⟨S100000x128, .f32⟩
  | .hbm, ⟨19, _⟩ => ⟨S200000x1, .i32⟩
  | .hbm, ⟨20, _⟩ => ⟨S100000x128, .f32⟩
  | .hbm, ⟨21, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S100000x128 : S_.BroadcastsInDim S100000x128 (![] : Fin 0 → Fin S100000x128.rank)
  bcast_S400000_S400000x1_0 : S400000.BroadcastsInDim S400000x1 (![0] : Fin 1 → Fin S400000x1.rank)
  bcast_S200000_S200000x1_0 : S200000.BroadcastsInDim S200000x1 (![0] : Fin 1 → Fin S200000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S384x128_S384x128_0_0 : ∀ a, (![0, 0] : Fin 2 → Nat) a + S384x128.size a ≤ S384x128.size a
  h_S384x128 : 0 < S384x128.numel
  slices_S384x128_o0_0_S128x128 : S384x128.Slices ![0, 0] S128x128
  slices_S384x128_o128_0_S128x128 : S384x128.Slices ![128, 0] S128x128
  slices_S384x128_o256_0_S128x128 : S384x128.Slices ![256, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  scatter_S100000x128_S400000x1_S400000x128_1_0_0_1_wf : ScatterDims.WF S100000x128 S400000x1 S400000x128 [1] [0] [0] 1
  scatter_S100000x128_S200000x1_S200000x128_1_0_0_1_wf : ScatterDims.WF S100000x128 S200000x1 S200000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)

variable [Facts₀]

def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S200000x128 : Shape := ⟨2, ![200000, 128]⟩
abbrev S400000 : Shape := ⟨1, ![400000]⟩
abbrev S200000 : Shape := ⟨1, ![200000]⟩
abbrev S384x128 : Shape := ⟨2, ![384, 128]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S200000x1 : Shape := ⟨2, ![200000, 1]⟩
abbrev S100000x384 : Shape := ⟨2, ![100000, 384]⟩
abbrev S1x128 : Shape := ⟨2, ![1, 128]⟩
abbrev S100000 : Shape := ⟨1, ![100000]⟩
abbrev S100000x1 : Shape := ⟨2, ![100000, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S200000x128, .f32⟩
  | .hbm, ⟨3, _⟩ => ⟨S400000, .i32⟩
  | .hbm, ⟨4, _⟩ => ⟨S200000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S100000x128, .f32⟩
  | .hbm, ⟨15, _⟩ => ⟨S400000x1, .i32⟩
  | .hbm, ⟨16, _⟩ => ⟨S100000x128, .f32⟩
  | .hbm, ⟨17, _⟩ => ⟨S_, .f32⟩
  | .hbm, ⟨18, _⟩ => ⟨S100000x128, .f32⟩
  | .hbm, ⟨19, _⟩ => ⟨S200000x1, .i32⟩
  | .hbm, ⟨20, _⟩ => ⟨S100000x128, .f32⟩
  | .hbm, ⟨21, _⟩ => ⟨S100000x384, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S_, .i32⟩
  | .hbm, ⟨47, _⟩ => ⟨S_, .f32⟩
  | .hbm, ⟨48, _⟩ => ⟨S100000, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_cst : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_cst : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_c : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_cst_1 : Ref sig .tc := ⟨.hbm, 57, rfl⟩
abbrev main_call2_v8 : Ref sig .tc := ⟨.hbm, 58, rfl⟩
abbrev main_call2_cst_2 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_cst_3 : Ref sig .tc := ⟨.hbm, 64, rfl⟩
abbrev main_call2_v13 : Ref sig .tc := ⟨.hbm, 65, rfl⟩
abbrev main_call2_cst_4 : Ref sig .tc := ⟨.hbm, 66, rfl⟩
abbrev main_call2_call0_v0 : Ref sig .tc := ⟨.hbm, 67, rfl⟩
abbrev main_call2_call0_v1 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_3 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S400000_S400000x1_0 : S400000.BroadcastsInDim S400000x1 (![0] : Fin 1 → Fin S400000x1.rank)
  bcast_S200000_S200000x1_0 : S200000.BroadcastsInDim S200000x1 (![0] : Fin 1 → Fin S200000x1.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S400000x1_S400000x128_1_0_0_1_wf : ScatterDims.WF S100000x128 S400000x1 S400000x128 [1] [0] [0] 1
  scatter_S100000x128_S200000x1_S200000x128_1_0_0_1_wf : ScatterDims.WF S100000x128 S200000x1 S200000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The node update, one row at a time.

  A node's output row depends only on that node's own feature row x, on the two rows y and z that the scatter-adds
  of the two edge sets leave at that node, and on the weights. With W1 a 384 x 128 matrix whose three blocks of 128
  rows meet x, y and z,

    h1 q = max (((sum_k x k * W1 k q + sum_k y k * W1 (128 + k) q) + sum_k z k * W1 (256 + k) q) + b1 q) 0
    h2 q = max ((sum_k h1 k * W2 k q) + b2 q) 0
    h3 q = (sum_k h2 k * W3 k q) + b3 q

  and the row is then normalized: with mu the mean of h3 over its 128 entries and v the mean of (h3 - mu)^2,

    out q = ((h3 q - mu) * rsqrt (v + eps)) * gamma q + beta q.

  Everything is on the extended reals; the three literals (0, 128, eps) stay the binary words both programs spell.
-/
import Idealize.ShloMosaic.PureOps.Ideal
import Idealize.ShloMosaic.Lib.ValueIdx

noncomputable section

namespace Cert.Spec

open Idealize.ShloMosaic

/-- The word both programs spell for 0. -/
abbrev zeroW : EReal := Ideal.ofBits .f32 0x00000000#32
/-- The word both programs spell for 128, the length of a row. -/
abbrev lenW : EReal := Ideal.ofBits .f32 0x43000000#32
/-- The word both programs spell for the normalization's epsilon. -/
abbrev epsW : EReal := Ideal.ofBits .f32 0x3727C5AC#32

/-- Row 128 * s + k of a 384-row matrix, s = 0, 1, 2. -/
def blockRow (s : Fin 3) (k : Fin 128) : Fin 384 := ⟨128 * s.val + k.val, by have := s.isLt; have := k.isLt; omega⟩

/-- The first layer before its maximum with zero: x, y, z against the three row blocks of W1, grouped as (x + y) + z,
    then the bias. -/
def lin1 (x y z : Fin 128 → EReal) (W1 : Fin 384 → Fin 128 → EReal) (b1 : Fin 128 → EReal) (q : Fin 128) : EReal :=
  (((∑ k : Fin 128, x k * W1 (blockRow 0 k) q) + ∑ k : Fin 128, y k * W1 (blockRow 1 k) q)
    + ∑ k : Fin 128, z k * W1 (blockRow 2 k) q) + b1 q

/-- A 128 x 128 layer before any maximum: the row against the matrix, then the bias. -/
def lin (h : Fin 128 → EReal) (W : Fin 128 → Fin 128 → EReal) (b : Fin 128 → EReal) (q : Fin 128) : EReal :=
  (∑ k : Fin 128, h k * W k q) + b q

/-- The maximum with the zero word. -/
def relu (a : EReal) : EReal := max a zeroW

/-- The three layers: the third without a maximum. -/
def mlp (x y z : Fin 128 → EReal) (W1 : Fin 384 → Fin 128 → EReal) (b1 : Fin 128 → EReal)
    (W2 : Fin 128 → Fin 128 → EReal) (b2 : Fin 128 → EReal) (W3 : Fin 128 → Fin 128 → EReal) (b3 : Fin 128 → EReal) :
    Fin 128 → EReal :=
  lin (fun k => relu (lin (fun j => relu (lin1 x y z W1 b1 j)) W2 b2 k)) W3 b3

/-- The mean of a row: its sum divided by the word for 128. -/
def mean (h : Fin 128 → EReal) : EReal := Ideal.div (∑ k : Fin 128, h k) lenW

/-- A row centred at its mean. -/
def centred (h : Fin 128 → EReal) (q : Fin 128) : EReal := h q - mean h

/-- The normalization of a row, scaled and shifted. -/
def lnorm (h g b : Fin 128 → EReal) (q : Fin 128) : EReal :=
  (centred h q * Ideal.rsqrt (mean (fun k => centred h k * centred h k) + epsW)) * g q + b q

/-- A node's output row from its three input rows and the weights. -/
def rowOut (x y z : Fin 128 → EReal) (W1 : Fin 384 → Fin 128 → EReal) (b1 : Fin 128 → EReal)
    (W2 : Fin 128 → Fin 128 → EReal) (b2 : Fin 128 → EReal) (W3 : Fin 128 → Fin 128 → EReal) (b3 : Fin 128 → EReal)
    (g b : Fin 128 → EReal) (q : Fin 128) : EReal :=
  lnorm (mlp x y z W1 b1 W2 b2 W3 b3) g b q

open Idealize.ShloMosaic.ValueIdx

/-- The whole result array: row r of the output from row r of the node features and of the two aggregated arrays. -/
def outArr (node aggM aggW : (⟨2, ![100000, 128]⟩ : Shape).Idx → EReal) (W1 : (⟨2, ![384, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (W3 : (⟨2, ![128, 128]⟩ : Shape).Idx → EReal) (b3 g b : (⟨1, ![128]⟩ : Shape).Idx → EReal) :
    (⟨2, ![100000, 128]⟩ : Shape).Idx → EReal := fun i =>
  rowOut (fun k => node (ix2 (⟨(i 0).val, (i 0).isLt⟩ : Fin 100000) k)) (fun k => aggM (ix2 (⟨(i 0).val, (i 0).isLt⟩ : Fin 100000) k))
    (fun k => aggW (ix2 (⟨(i 0).val, (i 0).isLt⟩ : Fin 100000) k))
    (fun k q => W1 (ix2 k q)) (fun q => b1 (ix1 q)) (fun k q => W2 (ix2 k q)) (fun q => b2 (ix1 q))
    (fun k q => W3 (ix2 k q)) (fun q => b3 (ix1 q)) (fun q => g (ix1 q)) (fun q => b (ix1 q))
    (⟨(i 1).val, (i 1).isLt⟩ : Fin 128)

end Cert.Spec

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KernelRowOps.lean ====
/-
  The kernel body's operations read at one element, over the extended reals.

  Each fact is about one operation of the body applied to arbitrary operands of the body's literal shapes, at
  coordinates (p, q) with p a row of the 2000-row block and q one of the 128 lanes:

  * a 2000 x 128 by 128 x 128 product into the zero accumulator is the sum over the shared axis;
  * the slice of 128 rows starting at row 128 s of a 384-row matrix reads row 128 s + k;
  * a 128-vector cast to one row and spread over the 2000 rows reads the vector at the lane;
  * a 2000-vector cast to one column and spread over the 128 lanes reads the vector at the row;
  * the sum over the lanes of a 2000 x 128 array, at row p, is the sum over k of its entries (p, k);
  * rounding to the narrower format and back changes nothing on the extended reals, and the maximum with the
    splat of the zero word is the specification's maximum with zero.
-/
import proofs.«120922_j52510270161469_1_alg».proof.Proof.Gen.KernelIdeal.Skeleton
import proofs.«120922_j52510270161469_1_alg».proof.Proof.Spec
import proofs.«120922_j52510270161469_1_alg».proof.Proof.LibPlainMatmul
import Idealize.ShloMosaic.PureOps.Ideal.Laws
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.ValueIdx
open scoped BigOperators

/-- The sum over the lanes, at row p. -/
theorem red_row (src : FVec Ideal S2000x128 .f32) (hφ : FKind.Formats .f32)
    (hacc : (0x00000000#32 : BitVec 32) = FKind.add.neutral .f32 hφ) (p : Fin 2000) :
    multiReduction .add [1] S2000 src 0x00000000#32 reduces_S2000x128_S2000 hφ hacc (ix1 p)
      = ∑ k : Fin 128, src (ix2 p k) := by
  refine (Ideal.multiReduction_add_single src 0x00000000#32 reduces_S2000x128_S2000 hφ hacc (ix1 p)).trans ?_
  refine Finset.sum_congr rfl fun k _ => congrArg src ?_
  funext a
  apply Fin.ext
  match a with
  | ⟨0, _⟩ => rfl
  | ⟨1, _⟩ => rfl

/-- The product into the zero accumulator, at (p, q). -/
theorem mm_read {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ c : Fin 128, l (ix2 p c) * r (ix2 c q) :=
  Cert.LibPlainMatmul.matmul_zero_plain dot_S2000x128_S128x128_S2000x128_1_0_0_1_n_n_wf l r p q

/-- A 128-vector as one row spread over the rows, at (p, q). -/
theorem bias_read {α : Type} (v : S128.Idx → α) (p : Fin 2000) (q : Fin 128) :
    broadcastTo S2000x128 (shapeCast S1x128 v shapeCasts_S128_S1x128) broadcasts_S1x128_S2000x128 (ix2 p q) = v (ix1 q) := by
  refine (broadcastTo_apply _ _ (ix2 p q) (ix2 (0 : Fin 1) q) fun a => ?_).trans ?_
  · match a with
    | ⟨0, _⟩ => rfl
    | ⟨1, _⟩ => rfl
  · refine shapeCast_apply _ _ _ _ ?_
    rw [Shape.rowMajor_val_one, Shape.rowMajor_val_two]
    show q.val = 0 * 128 + q.val
    omega

/-- A 2000-vector as one column spread over the lanes, at (p, q). -/
theorem col_read {α : Type} (v : S2000.Idx → α) (p : Fin 2000) (q : Fin 128) :
    broadcastTo S2000x128 (shapeCast S2000x1 v shapeCasts_S2000_S2000x1) broadcasts_S2000x1_S2000x128 (ix2 p q) = v (ix1 p) := by
  refine (broadcastTo_apply _ _ (ix2 p q) (ix2 p (0 : Fin 1)) fun a => ?_).trans ?_
  · match a with
    | ⟨0, _⟩ => rfl
    | ⟨1, _⟩ => rfl
  · refine shapeCast_apply _ _ _ _ ?_
    rw [Shape.rowMajor_val_one, Shape.rowMajor_val_two]
    show p.val = p.val * 1 + 0
    omega

/-- The three blocks of 128 rows of a 384-row matrix, at (k, j). -/
theorem slice0_read {α : Type} (x : S384x128.Idx → α) (k j : Fin 128) :
    extractStridedSlice S128x128 ![0, 0] x slices_S384x128_o0_0_S128x128 (ix2 k j) = x (ix2 (Spec.blockRow 0 k) j) := by
  refine extractStridedSlice_apply _ x _ _ _ fun a => ?_
  match a with
  | ⟨0, _⟩ => show 128 * 0 + k.val = 0 + k.val; omega
  | ⟨1, _⟩ => show j.val = 0 + j.val; omega

theorem slice1_read {α : Type} (x : S384x128.Idx → α) (k j : Fin 128) :
    extractStridedSlice S128x128 ![128, 0] x slices_S384x128_o128_0_S128x128 (ix2 k j) = x (ix2 (Spec.blockRow 1 k) j) := by
  refine extractStridedSlice_apply _ x _ _ _ fun a => ?_
  match a with
  | ⟨0, _⟩ => show 128 * 1 + k.val = 128 + k.val; omega
  | ⟨1, _⟩ => show j.val = 0 + j.val; omega

theorem slice2_read {α : Type} (x : S384x128.Idx → α) (k j : Fin 128) :
    extractStridedSlice S128x128 ![256, 0] x slices_S384x128_o256_0_S128x128 (ix2 k j) = x (ix2 (Spec.blockRow 2 k) j) := by
  refine extractStridedSlice_apply _ x _ _ _ fun a => ?_
  match a with
  | ⟨0, _⟩ => show 128 * 2 + k.val = 256 + k.val; omega
  | ⟨1, _⟩ => show j.val = 0 + j.val; omega

/-- The maximum with the splat of the zero word, then the rounding to the narrower format, at an index. -/
theorem trunc_relu_read (x : FVec Ideal S2000x128 .f32) (i : S2000x128.Idx) :
    truncf .bf16 (maximumf x (broadcast S2000x128 (Scalar.ofBits .f32 0x00000000#32))) bitsLt_bf16_f32 i = Spec.relu (x i) := rfl

/-- The rounding to the narrower format is the identity. -/
theorem trunc_read {s : Shape} (x : FVec Ideal s .f32) (i : s.Idx) : truncf .bf16 x bitsLt_bf16_f32 i = x i := rfl

end Cert.KernelIdeal.RowValue

end
-- ==== Proof.KernelRowMlp.lean ====
/-
  The second payload of the body — the three layers up to, and without, the third bias — read at one element:
  at (p, q) it is the sum over k of the second layer's row p at k times the third matrix at (k, q), the second
  layer's row being the specification's, built from rows p of the three loaded blocks.
-/
import proofs.«120922_j52510270161469_1_alg».proof.Proof.KernelRowOps

noncomputable section

namespace Cert.KernelIdeal.RowValue

open Cert.KernelIdeal Cert.KernelIdeal.Gen Idealize.ShloMosaic Idealize.ShloMosaic.ValueIdx
open scoped BigOperators

/-- The three layers without the last bias, at (p, q). -/
theorem pay2_read (P0 P1 P2 : Vec Ideal S2000x128 .f32) (P3 : Vec Ideal S384x128 .f32) (P4 : Vec Ideal S128 .f32)
    (P5 : Vec Ideal S128x128 .f32) (P6 : Vec Ideal S128 .f32) (P7 : Vec Ideal S128x128 .f32) (p : Fin 2000) (q : Fin 128) :
    k0_pay2 (F := Ideal) P0 P1 P2 P3 P4 P5 P6 P7 (ix2 p q)
      = ∑ k : Fin 128,
          Spec.relu (Spec.lin (fun j => Spec.relu (Spec.lin1 (fun k => P0 (ix2 p k)) (fun k => P1 (ix2 p k)) (fun k => P2 (ix2 p k))
              (fun k j => P3 (ix2 k j)) (fun j => P4 (ix1 j)) j)) (fun k j => P5 (ix2 k j)) (fun j => P6 (ix1 j)) k)
            * P7 (ix2 k q) := by
  unfold Gen.k0_pay2
  refine (mm_read _ _ p q).trans ?_
  refine Finset.sum_congr rfl fun k _ => ?_
  refine congrArg₂ (· * ·) ?_ (trunc_read P7 (ix2 k q))
  refine (trunc_relu_read _ (ix2 p k)).trans ?_
  refine congrArg Spec.relu ?_
  refine (addf_apply _ _ _).trans ?_
  refine congrArg₂ (· + ·) ?_ (bias_read P6 p k)
  refine (mm_read _ _ p k).trans ?_
  refine Finset.sum_congr rfl fun j _ => ?_
  refine congrArg₂ (· * ·) ?_ (trunc_read P5 (ix2 j k))
  refine (trunc_relu_read _ (ix2 p j)).trans ?_
  refine congrArg Spec.relu ?_
  refine (addf_apply _ _ _).trans ?_
  refine congrArg₂ (· + ·) ?_ (bias_read P4 p j)
  refine (addf_apply _ _ _).trans ?_
  refine congrArg₂ (· + ·) ?_ ?_
  · refine (addf_apply _ _ _).trans ?_
    refine congrArg₂ (· + ·) ?_ ?_
    · refine (mm_read _ _ p j).trans ?_
      exact Finset.sum_congr rfl fun c _ => congrArg₂ (· * ·) rfl (slice0_read _ c j)
    · refine (mm_read _ _ p j).trans ?_
      refine Finset.sum_congr rfl fun c _ => congrArg₂ (· * ·) ?_ (slice1_read _ c j)
      exact congrFun (shapeCast_self P1 _) (ix2 p c)
  · refine (mm_read _ _ p j).trans ?_
    refine Finset.sum_congr rfl fun c _ => congrArg₂ (· * ·) ?_ (slice2_read _ c j)
    exact congrFun (shapeCast_self P2 _) (ix2 p c)

end Cert.KernelIdeal.RowValue

end
-- ==== Proof.KernelRow.lean ====
/-
  The body's result block read at one element is the specification's row.

  With h the third layer's row p (the product of the second payload plus the third bias), the body forms the lane
  sum of h, divides by the word for 128 to get the mean, subtracts it, forms the lane sum of the squares of the
  centred row, divides again, adds the epsilon word, takes the reciprocal square root, multiplies, scales and
  shifts. Each lane sum is a sum over the 128 lanes of entries (p, k); each one-column array spread over the
  lanes reads its entry of row p. The result is the specification's normalized row at lane q.
-/
import proofs.«120922_j52510270161469_1_alg».proof.Proof.Gen.KernelIdeal.Value
import proofs.«120922_j52510270161469_1_alg».proof.Proof.KernelRowMlp

noncomputable section

namespace Cert.KernelIdeal.RowValue

open Cert.KernelIdeal Cert.KernelIdeal.Gen Idealize.ShloMosaic Idealize.ShloMosaic.ValueIdx
open scoped BigOperators

/-- A one-column array spread over the lanes reads its entry of the row. -/
theorem colb_read {α : Type} (w : S2000x1.Idx → α) (p : Fin 2000) (q : Fin 128) :
    broadcastTo S2000x128 w broadcasts_S2000x1_S2000x128 (ix2 p q) = w (ix2 p (0 : Fin 1)) := by
  refine broadcastTo_apply _ _ (ix2 p q) (ix2 p (0 : Fin 1)) fun a => ?_
  match a with
  | ⟨0, _⟩ => rfl
  | ⟨1, _⟩ => rfl

/-- A 2000-vector as one column reads the vector at the row. -/
theorem colc_read {α : Type} (v : S2000.Idx → α) (p : Fin 2000) :
    shapeCast S2000x1 v shapeCasts_S2000_S2000x1 (ix2 p (0 : Fin 1)) = v (ix1 p) := by
  refine shapeCast_apply _ _ _ _ ?_
  rw [Shape.rowMajor_val_one, Shape.rowMajor_val_two]
  show p.val = p.val * 1 + 0
  omega

/-- The shape of the block's entry: scalar operations over the extended reals. -/
theorem entry_shape (a b s1 s2 g c : Ideal .f32) :
    FloatOps.addf (FloatOps.mulf (FloatOps.mulf (FloatOps.subf (FloatOps.addf a b)
        (FloatOps.divf s1 (Scalar.ofBits .f32 0x43000000#32)))
        (FloatOps.rsqrt (FloatOps.addf (FloatOps.divf s2 (Scalar.ofBits .f32 0x43000000#32)) (Scalar.ofBits .f32 0x3727C5AC#32)))) g) c
      = (((a + b) - Ideal.div s1 Spec.lenW) * Ideal.rsqrt (Ideal.div s2 Spec.lenW + Spec.epsW)) * g + c := rfl

/-- Congruence of that shape in the third layer's entry and the two sums. -/
theorem entry_congr {a a' s1 s1' s2 s2' : EReal} (g c : EReal) (ha : a = a') (h1 : s1 = s1') (h2 : s2 = s2') :
    ((a - Ideal.div s1 Spec.lenW) * Ideal.rsqrt (Ideal.div s2 Spec.lenW + Spec.epsW)) * g + c
      = ((a' - Ideal.div s1' Spec.lenW) * Ideal.rsqrt (Ideal.div s2' Spec.lenW + Spec.epsW)) * g + c := by
  subst ha h1 h2; rfl

section
variable (P0 P1 P2 : Vec Ideal S2000x128 .f32) (P3 : Vec Ideal S384x128 .f32) (P4 : Vec Ideal S128 .f32)
  (P5 : Vec Ideal S128x128 .f32) (P6 : Vec Ideal S128 .f32) (P7 : Vec Ideal S128x128 .f32) (P8 : Vec Ideal S128 .f32)

/-- The third layer with its bias, as the body forms it. -/
abbrev third : FVec Ideal S2000x128 .f32 :=
  addf (k0_pay2 (F := Ideal) P0 P1 P2 P3 P4 P5 P6 P7)
    (broadcastTo S2000x128 (shapeCast S1x128 P8 shapeCasts_S128_S1x128) broadcasts_S1x128_S2000x128)

/-- The specification's third-layer row of row p. -/
abbrev specRow (p : Fin 2000) : Fin 128 → EReal :=
  Spec.mlp (fun k => P0 (ix2 p k)) (fun k => P1 (ix2 p k)) (fun k => P2 (ix2 p k))
    (fun k j => P3 (ix2 k j)) (fun j => P4 (ix1 j)) (fun k j => P5 (ix2 k j)) (fun j => P6 (ix1 j))
    (fun k j => P7 (ix2 k j)) (fun j => P8 (ix1 j))

/-- The third layer at (p, k) is the specification's. -/
theorem third_read (p : Fin 2000) (k : Fin 128) :
    third P0 P1 P2 P3 P4 P5 P6 P7 P8 (ix2 p k) = specRow P0 P1 P2 P3 P4 P5 P6 P7 P8 p k :=
  (addf_apply _ _ _).trans (congrArg₂ (· + ·) (pay2_read P0 P1 P2 P3 P4 P5 P6 P7 p k) (bias_read P8 p k))

/-- Its lane sum at row p. -/
theorem sum1_read (p : Fin 2000) :
    multiReduction .add [1] S2000 (third P0 P1 P2 P3 P4 P5 P6 P7 P8) 0x00000000#32 reduces_S2000x128_S2000 (.inl rfl) rfl (ix1 p)
      = ∑ k : Fin 128, specRow P0 P1 P2 P3 P4 P5 P6 P7 P8 p k :=
  (red_row _ _ _ p).trans (Finset.sum_congr rfl fun k _ => third_read P0 P1 P2 P3 P4 P5 P6 P7 P8 p k)

/-- The mean as a column spread over the lanes. -/
abbrev meanArr : FVec Ideal S2000x128 .f32 :=
  broadcastTo S2000x128 (divf (shapeCast S2000x1 (multiReduction .add [1] S2000 (third P0 P1 P2 P3 P4 P5 P6 P7 P8) 0x00000000#32
      reduces_S2000x128_S2000 (.inl rfl) rfl) shapeCasts_S2000_S2000x1) (broadcast S2000x1 (Scalar.ofBits .f32 0x43000000#32)))
    broadcasts_S2000x1_S2000x128

theorem mean_read (p : Fin 2000) (k : Fin 128) :
    meanArr P0 P1 P2 P3 P4 P5 P6 P7 P8 (ix2 p k) = Spec.mean (specRow P0 P1 P2 P3 P4 P5 P6 P7 P8 p) := by
  refine (colb_read _ p k).trans ?_
  refine (divf_apply _ _ _).trans ?_
  exact congrArg₂ Ideal.div ((colc_read _ p).trans (sum1_read P0 P1 P2 P3 P4 P5 P6 P7 P8 p)) rfl

/-- The centred third layer at (p, k). -/
theorem centred_read (p : Fin 2000) (k : Fin 128) :
    subf (third P0 P1 P2 P3 P4 P5 P6 P7 P8) (meanArr P0 P1 P2 P3 P4 P5 P6 P7 P8) (ix2 p k)
      = Spec.centred (specRow P0 P1 P2 P3 P4 P5 P6 P7 P8 p) k :=
  (subf_apply _ _ _).trans (congrArg₂ (· - ·) (third_read P0 P1 P2 P3 P4 P5 P6 P7 P8 p k) (mean_read P0 P1 P2 P3 P4 P5 P6 P7 P8 p k))

/-- The lane sum of the centred squares at row p. -/
theorem sum2_read (p : Fin 2000) :
    multiReduction .add [1] S2000
        (mulf (subf (third P0 P1 P2 P3 P4 P5 P6 P7 P8) (meanArr P0 P1 P2 P3 P4 P5 P6 P7 P8))
          (subf (third P0 P1 P2 P3 P4 P5 P6 P7 P8) (meanArr P0 P1 P2 P3 P4 P5 P6 P7 P8)))
        0x00000000#32 reduces_S2000x128_S2000 (.inl rfl) rfl (ix1 p)
      = ∑ k : Fin 128, Spec.centred (specRow P0 P1 P2 P3 P4 P5 P6 P7 P8 p) k * Spec.centred (specRow P0 P1 P2 P3 P4 P5 P6 P7 P8 p) k := by
  refine (red_row _ _ _ p).trans (Finset.sum_congr rfl fun k _ => ?_)
  refine (mulf_apply _ _ _).trans ?_
  exact congrArg₂ (· * ·) (centred_read P0 P1 P2 P3 P4 P5 P6 P7 P8 p k) (centred_read P0 P1 P2 P3 P4 P5 P6 P7 P8 p k)

end

/-- The block's entry (p, q) is the specification's row of row p at lane q. -/
theorem block_eq (P0 P1 P2 : Vec Ideal S2000x128 .f32) (P3 : Vec Ideal S384x128 .f32) (P4 : Vec Ideal S128 .f32) (P5 : Vec Ideal S128x128 .f32) (P6 : Vec Ideal S128 .f32) (P7 : Vec Ideal S128x128 .f32) (P8 P9 P10 : Vec Ideal S128 .f32) (p : Fin 2000) (q : Fin 128) :
    Cert.KernelIdeal.Value.E11 (F := Ideal) P0 P1 P2 P3 P4 P5 P6 P7 P8 P9 P10 (ValueIdx.ix2 p q)
      = Cert.Spec.rowOut (fun k => P0 (ValueIdx.ix2 p k)) (fun k => P1 (ValueIdx.ix2 p k)) (fun k => P2 (ValueIdx.ix2 p k))
          (fun k j => P3 (ValueIdx.ix2 k j)) (fun j => P4 (ValueIdx.ix1 j)) (fun k j => P5 (ValueIdx.ix2 k j)) (fun j => P6 (ValueIdx.ix1 j))
          (fun k j => P7 (ValueIdx.ix2 k j)) (fun j => P8 (ValueIdx.ix1 j)) (fun j => P9 (ValueIdx.ix1 j)) (fun j => P10 (ValueIdx.ix1 j)) q := by
  have e0 : Value.ix11_0 (ix2 p q) = ix2 p q := funext fun a => match a with | ⟨0, _⟩ => rfl | ⟨1, _⟩ => rfl
  have e1 : Value.ix11_1 (ix2 p q) = ix1 q := funext fun a => match a with | ⟨0, _⟩ => rfl
  have e2 : Value.ix11_2 (ix2 p q) = ix1 p := funext fun a => match a with | ⟨0, _⟩ => rfl
  have e3 : Value.ix11_3 (ix2 p q) = ix1 p := funext fun a => match a with | ⟨0, _⟩ => rfl
  have e4 : Value.ix11_4 (ix2 p q) = ix1 q := funext fun a => match a with | ⟨0, _⟩ => rfl
  have e5 : Value.ix11_5 (ix2 p q) = ix1 q := funext fun a => match a with | ⟨0, _⟩ => rfl
  refine (entry_shape _ _ _ _ _ _).trans ?_
  rw [e0, e1, e2, e3, e4, e5]
  exact entry_congr (P9 (ix1 q)) (P10 (ix1 q)) (congrArg₂ (· + ·) (pay2_read P0 P1 P2 P3 P4 P5 P6 P7 p q) rfl)
    (sum1_read P0 P1 P2 P3 P4 P5 P6 P7 P8 p) (sum2_read P0 P1 P2 P3 P4 P5 P6 P7 P8 p)

end Cert.KernelIdeal.RowValue

end
-- ==== Proof.KernelArr.lean ====
/-
  From blocks to the whole array, for the kernel's one output.

  The grid has 50 points; point t stages rows 2000 t .. 2000 t + 1999 of the node features and of the two aggregated
  arrays, all of every weight and bias, and writes back rows 2000 t .. 2000 t + 1999 of the output. The body's block,
  read at (p, q), is the specification's row of the three staged rows p (the row-wise reading of the body), and staged
  row p of point t is row 2000 t + p of its array; so what point t writes back is block t of ONE array, "result",
  whose row r is the specification's row of rows r of the three arrays. The 50 blocks cover the 100000 rows (row i
  lies in the block of point i / 2000), so the output array ends as "result".

  The two aggregated arrays are what the host operations before the region leave: the scatter-adds of the edge rows
  into the zero array. They are carried as opaque arrays; nothing here looks inside a scatter-add.
-/
import proofs.«120922_j52510270161469_1_alg».proof.Proof.Gen.KernelIdeal.Value
import proofs.«120922_j52510270161469_1_alg».proof.Proof.Spec
import proofs.«120922_j52510270161469_1_alg».proof.Proof.KernelRow
import Idealize.ShloMosaic.Lib.ValueIdx
import Idealize.ShloMosaic.Lib.Pipeline.Value
import Idealize.ShloMosaic.Lib.StableHlo.Run

noncomputable section

namespace Cert.KernelIdeal.ArrValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole result array as the region's arrays determine it: each row the specification's row of the matching rows of
    the node features and of the two aggregated arrays. -/
def result (c : Dev nD) : S100000x128.Idx → EReal :=
  Cert.Spec.outArr (V m c main_arg0) (V m c main_v2) (V m c main_v5) (V m c main_arg5) (V m c main_arg6) (V m c main_arg7)
    (V m c main_arg8) (V m c main_arg9) (V m c main_arg10) (V m c main_arg11) (V m c main_arg12)

theorem hz2 : (![0, 0] : Fin 2 → Nat) = fun _ => 0 := funext fun a => by fin_cases a <;> rfl
theorem hz1 : (![0] : Fin 1 → Nat) = fun _ => 0 := funext fun a => by fin_cases a; rfl

/-- The printed index maps over the 50 grid points: the three row windows and the output window sit at block t of the
    row axis and block 0 of the column axis; every weight and bias window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_4.index t (0 : Fin 1) = 0 ∧ win0_6.index t (0 : Fin 1) = 0 ∧ win0_8.index t (0 : Fin 1) = 0
    ∧ win0_9.index t (0 : Fin 1) = 0 ∧ win0_10.index t (0 : Fin 1) = 0 :=
  (by decide +kernel : ∀ t : Fin grid0.N, _)

/-- A row window's block at point t, read at (p, k), is row 2000 t + p of its array. -/
theorem rowblock_idx (t : Fin cfg0.N) (p : Fin 2000) (k : Fin 128) (r : Fin 100000) (hr : r.val = t.val * 2000 + p.val)
    (i0 i1 : Nat) (h0 : i0 = t.val) (h1 : i1 = 0) (a : Fin 2) :
    (![i0 * 2000 + 1 * p.val, i1 * 128 + 1 * k.val] : Fin 2 → Nat) a = ((ix2 r k : S100000x128.Idx) a).val := by
  subst h0; subst h1
  match a with
  | ⟨0, _⟩ => show t.val * 2000 + 1 * p.val = r.val; omega
  | ⟨1, _⟩ => show 0 * 128 + 1 * k.val = k.val; omega

/-- WHAT POINT t WRITES BACK is block t of the result array. -/
theorem flushed_eq (c : Dev nD) (t : Fin cfg0.N) :
    (dats m 0 c).flushed 11 t = ((cfg0.win 11).blk t).view.read (Elt Ideal) (result m c) := by
  rw [flushed11]
  unfold out0_11
  simp only [View.ld_unit_zero (S := S2000x128) hz2, View.ld_unit_zero (S := S384x128) hz2,
    View.ld_unit_zero (S := S128x128) hz2, View.ld_unit_zero (S := S128) hz1]
  obtain ⟨a0, a0', a1, a1', a2, a2', a11, a11', a3, a3', a5, a5', a7, a7', a4, a6, a8, a9, a10⟩ := idx_facts t
  have htN : t.val < 50 := by have := t.isLt; have hN : cfg0.N = 50 := N_0; omega
  funext j
  obtain ⟨p, q, rfl⟩ : ∃ (p : Fin 2000) (q : Fin 128), j = ix2 p q := ⟨j 0, j 1, eq_ix2 j⟩
  show View.canon ([⟨r0_0, k0_pay1 (k0_pay2 (iblk m c 0 t) (iblk m c 1 t) (iblk m c 2 t) (iblk m c 3 t) (iblk m c 4 t) (iblk m c 5 t) (iblk m c 6 t) (iblk m c 7 t)) (iblk m c 8 t) (iblk m c 9 t) (iblk m c 10 t)⟩] : List (View.Piece (Elt Ideal) S2000x128 .f32)) (ix2 p q)
    = result m c (((cfg0.win 11).blk t).view.emb (ix2 p q))
  refine (canon11_eq _ _ _ _ _ _ _ _ _ _ _ (ix2 p q)).trans ?_
  refine (Cert.KernelIdeal.RowValue.block_eq _ _ _ _ _ _ _ _ _ _ _ p q).trans ?_
  have hp : p.val < 2000 := p.isLt
  let r : Fin 100000 := ⟨t.val * 2000 + p.val, by omega⟩
  have hemb : ((cfg0.win 11).blk t).view.emb (ix2 p q) = (ix2 r q : S100000x128.Idx) := by
    funext a; apply Fin.ext
    match a with
    | ⟨0, _⟩ => show win0_11.index t (0 : Fin 2) * 2000 + 1 * p.val = t.val * 2000 + p.val; omega
    | ⟨1, _⟩ => show win0_11.index t (1 : Fin 2) * 128 + 1 * q.val = q.val; omega
  rw [hemb]
  have e0 : ∀ k : Fin 128, iblk m c 0 t (ix2 p k) = V m c main_arg0 (ix2 r k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have e1 : ∀ k : Fin 128, iblk m c 1 t (ix2 p k) = V m c main_v2 (ix2 r k) := fun k => by
    show V m c main_v2 (((cfg0.win 1).blk t).view.emb (ix2 p k)) = _
    refine congrArg (V m c main_v2) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  have e2 : ∀ k : Fin 128, iblk m c 2 t (ix2 p k) = V m c main_v5 (ix2 r k) := fun k => by
    show V m c main_v5 (((cfg0.win 2).blk t).view.emb (ix2 p k)) = _
    refine congrArg (V m c main_v5) (funext fun a => Fin.ext ?_)
    match a with
    | ⟨0, _⟩ => show win0_2.index t (0 : Fin 2) * 2000 + 1 * p.val = t.val * 2000 + p.val; omega
    | ⟨1, _⟩ => show win0_2.index t (1 : Fin 2) * 128 + 1 * k.val = k.val; omega
  have e3 : ∀ (k : Fin 384) (j : Fin 128), iblk m c 3 t (ix2 k j) = V m c main_arg5 (ix2 k j) := fun k j => by
    show V m c main_arg5 (((cfg0.win 3).blk t).view.emb (ix2 k j)) = _
    refine congrArg (V m c main_arg5) (funext fun a => Fin.ext ?_)
    match a with
    | ⟨0, _⟩ => show win0_3.index t (0 : Fin 2) * 384 + 1 * k.val = k.val; omega
    | ⟨1, _⟩ => show win0_3.index t (1 : Fin 2) * 128 + 1 * j.val = j.val; omega
  have e4 : ∀ j : Fin 128, iblk m c 4 t (ix1 j) = V m c main_arg6 (ix1 j) := fun j => by
    show V m c main_arg6 (((cfg0.win 4).blk t).view.emb (ix1 j)) = _
    refine congrArg (V m c main_arg6) (funext fun a => Fin.ext ?_)
    match a with
    | ⟨0, _⟩ => show win0_4.index t (0 : Fin 1) * 128 + 1 * j.val = j.val; omega
  have e5 : ∀ (k : Fin 128) (j : Fin 128), iblk m c 5 t (ix2 k j) = V m c main_arg7 (ix2 k j) := fun k j => by
    show V m c main_arg7 (((cfg0.win 5).blk t).view.emb (ix2 k j)) = _
    refine congrArg (V m c main_arg7) (funext fun a => Fin.ext ?_)
    match a with
    | ⟨0, _⟩ => show win0_5.index t (0 : Fin 2) * 128 + 1 * k.val = k.val; omega
    | ⟨1, _⟩ => show win0_5.index t (1 : Fin 2) * 128 + 1 * j.val = j.val; omega
  have e6 : ∀ j : Fin 128, iblk m c 6 t (ix1 j) = V m c main_arg8 (ix1 j) := fun j => by
    show V m c main_arg8 (((cfg0.win 6).blk t).view.emb (ix1 j)) = _
    refine congrArg (V m c main_arg8) (funext fun a => Fin.ext ?_)
    match a with
    | ⟨0, _⟩ => show win0_6.index t (0 : Fin 1) * 128 + 1 * j.val = j.val; omega
  have e7 : ∀ (k : Fin 128) (j : Fin 128), iblk m c 7 t (ix2 k j) = V m c main_arg9 (ix2 k j) := fun k j => by
    show V m c main_arg9 (((cfg0.win 7).blk t).view.emb (ix2 k j)) = _
    refine congrArg (V m c main_arg9) (funext fun a => Fin.ext ?_)
    match a with
    | ⟨0, _⟩ => show win0_7.index t (0 : Fin 2) * 128 + 1 * k.val = k.val; omega
    | ⟨1, _⟩ => show win0_7.index t (1 : Fin 2) * 128 + 1 * j.val = j.val; omega
  have e8 : ∀ j : Fin 128, iblk m c 8 t (ix1 j) = V m c main_arg10 (ix1 j) := fun j => by
    show V m c main_arg10 (((cfg0.win 8).blk t).view.emb (ix1 j)) = _
    refine congrArg (V m c main_arg10) (funext fun a => Fin.ext ?_)
    match a with
    | ⟨0, _⟩ => show win0_8.index t (0 : Fin 1) * 128 + 1 * j.val = j.val; omega
  have e9 : ∀ j : Fin 128, iblk m c 9 t (ix1 j) = V m c main_arg11 (ix1 j) := fun j => by
    show V m c main_arg11 (((cfg0.win 9).blk t).view.emb (ix1 j)) = _
    refine congrArg (V m c main_arg11) (funext fun a => Fin.ext ?_)
    match a with
    | ⟨0, _⟩ => show win0_9.index t (0 : Fin 1) * 128 + 1 * j.val = j.val; omega
  have e10 : ∀ j : Fin 128, iblk m c 10 t (ix1 j) = V m c main_arg12 (ix1 j) := fun j => by
    show V m c main_arg12 (((cfg0.win 10).blk t).view.emb (ix1 j)) = _
    refine congrArg (V m c main_arg12) (funext fun a => Fin.ext ?_)
    match a with
    | ⟨0, _⟩ => show win0_10.index t (0 : Fin 1) * 128 + 1 * j.val = j.val; omega
  simp only [e0, e1, e2, e3, e4, e5, e6, e7, e8, e9, e10]
  rfl

/-- An index of the array is in point t's block iff each coordinate is in the block's range on its axis. -/
theorem mem_blk (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v6).slice (win0_11.rect t)).set ↔ _
  rw [View.set_slice_whole, Rect.mem_set_unit]
  exact Iff.rfl

/-- Every row lies in some point's block: row i of the array is in the block of point i / 2000. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, a11, a11', -⟩ := idx_facts ⟨(i 0).val / 2000, ht⟩
  refine ⟨⟨(i 0).val / 2000, ht⟩, flush0_11 _, ?_⟩
  rw [mem_blk]
  intro a
  match a with
  | ⟨0, _⟩ =>
    show win0_11.index ⟨(i 0).val / 2000, ht⟩ (0 : Fin 2) * 2000 ≤ (i 0).val ∧ (i 0).val < win0_11.index ⟨(i 0).val / 2000, ht⟩ (0 : Fin 2) * 2000 + 2000
    rw [a11]; show (i 0).val / 2000 * 2000 ≤ (i 0).val ∧ (i 0).val < (i 0).val / 2000 * 2000 + 2000; omega
  | ⟨1, _⟩ =>
    show win0_11.index ⟨(i 0).val / 2000, ht⟩ (1 : Fin 2) * 128 ≤ (i 1).val ∧ (i 1).val < win0_11.index ⟨(i 0).val / 2000, ht⟩ (1 : Fin 2) * 128 + 128
    rw [a11']; omega

/-- THE ARRAY after the run is the result array. -/
theorem final (c : Dev nD) : (dats m 0 c).arrAt 11 cfg0.N = result m c :=
  (dats m 0 c).arrAt_eq_of_cover 11 (result m c) (fun t _ => flushed_eq m c t) cover

/-- The 400000 edge rows added, from the zero array, into the rows the index array names. -/
def aggM (idx : (⟨S400000, .i32⟩ : BufTy).Contents (Elt Ideal)) (u : (⟨S400000x128, .f32⟩ : BufTy).Contents (Elt Ideal)) :
    (⟨S100000x128, .f32⟩ : BufTy).Contents (Elt Ideal) :=
  Host.scatterAdd scatter_S100000x128_S400000x1_S400000x128_1_0_0_1
    (broadcastInDim S100000x128 ![] bcast_S_S100000x128 (constant (F := Ideal) S_ .f32 0x00000000#32))
    (broadcastInDim S400000x1 ![0] bcast_S400000_S400000x1_0 idx) u

/-- The 200000 edge rows added, from the zero array, into the rows the index array names. -/
def aggW (idx : (⟨S200000, .i32⟩ : BufTy).Contents (Elt Ideal)) (u : (⟨S200000x128, .f32⟩ : BufTy).Contents (Elt Ideal)) :
    (⟨S100000x128, .f32⟩ : BufTy).Contents (Elt Ideal) :=
  Host.scatterAdd scatter_S100000x128_S200000x1_S200000x128_1_0_0_1
    (broadcastInDim S100000x128 ![] bcast_S_S100000x128 (constant (F := Ideal) S_ .f32 0x00000000#32))
    (broadcastInDim S200000x1 ![0] bcast_S200000_S200000x1_0 idx) u

/-- The region finds the first aggregate where the host operations before it left it. -/
theorem V_main_v2 (c : Dev nD) :
    (V m c main_v2 : S100000x128.Idx → EReal) = aggM (m ((c : Thread nD τ).loc main_arg3)) (m ((c : Thread nD τ).loc main_arg1)) := by
  dsimp only [Gen.V, Gen.hostOps0]; after_results; rfl

/-- The region finds the second aggregate where the host operations before it left it. -/
theorem V_main_v5 (c : Dev nD) :
    (V m c main_v5 : S100000x128.Idx → EReal) = aggW (m ((c : Thread nD τ).loc main_arg4)) (m ((c : Thread nD τ).loc main_arg2)) := by
  dsimp only [Gen.V, Gen.hostOps0]; after_results; rfl

/-- The result array in terms of the launch contents of the arguments. -/
theorem result_eq (c : Dev nD) : result m c =
    Cert.Spec.outArr (m ((c : Thread nD τ).loc main_arg0)) (aggM (m ((c : Thread nD τ).loc main_arg3)) (m ((c : Thread nD τ).loc main_arg1)))
      (aggW (m ((c : Thread nD τ).loc main_arg4)) (m ((c : Thread nD τ).loc main_arg2))) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) := by
  unfold result
  rw [V_main_v2 m c, V_main_v5 m c, V_main_arg0 m c, V_main_arg5 m c, V_main_arg6 m c, V_main_arg7 m c, V_main_arg8 m c,
    V_main_arg9 m c, V_main_arg10 m c, V_main_arg11 m c, V_main_arg12 m c]

/-- The kernel's run: its result array ends at the specification of the launch contents of the arguments, which end
    unchanged. -/
theorem run : θ_run defs (onTc (τ := τ) (main (F := Ideal))) ⟨m, fun _ => 0, ρ⟩ fun r => ∀ c : Dev nD,
      r.2.mem ((c : Thread nD τ).loc main_v6) =
        Cert.Spec.outArr (m ((c : Thread nD τ).loc main_arg0)) (aggM (m ((c : Thread nD τ).loc main_arg3)) (m ((c : Thread nD τ).loc main_arg1)))
          (aggW (m ((c : Thread nD τ).loc main_arg4)) (m ((c : Thread nD τ).loc main_arg2))) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((final m c).trans (result_eq m c)), (h c).2⟩) (run_blocks m ρ)

end Cert.KernelIdeal.ArrValue

end
-- ==== Proof.RefTerm.lean ====
/-
  The reference's result as one term of its argument arrays: its host operations composed, stage by stage.

  scatM, scatW : the two scatter-adds of edge rows into the zero array, at the rows the index arrays name;
  cat3         : the node features and the two aggregates side by side, 384 columns;
  layer1/2/3   : product with the weight matrix, the bias broadcast over the rows, a maximum with zero after the
                 first two;
  meanCol      : a row's sum over its 128 entries divided by 128, as a column;
  varCol       : the mean of the squared distance from the row's mean, with the divisor 128 - 0 computed from the
                 integer 0 and guarded by a comparison with zero (the not-a-number word on the other branch);
  refOut       : the normalized, scaled and shifted rows.
-/
import proofs.«120922_j52510270161469_1_alg».proof.ReferenceIdeal

noncomputable section

namespace Cert.ReferenceIdeal.RefValue

open Cert.ReferenceIdeal Idealize.ShloMosaic Idealize.SL.Sem
open Cert.ReferenceIdeal.Facts₀ Cert.ReferenceIdeal.Facts

variable {F : FTy → Type} [FloatOps F] [Cert.ReferenceIdeal.Facts]

/-- Arrays of the program's shapes. -/
abbrev Arr (s : Shape) := (⟨s, .f32⟩ : BufTy).Contents (Elt F)
abbrev IArr (s : Shape) := (⟨s, .i32⟩ : BufTy).Contents (Elt F)

/-- The zero array the scatter-adds and the maxima start from. -/
def zeros : Arr (F := F) S100000x128 :=
  broadcastInDim S100000x128 ![] bcast_S_S100000x128 (constant (F := F) S_ .f32 0x00000000#32)

/-- The 400000 edge rows added into the rows the index array names. -/
def scatM (idx : IArr (F := F) S400000) (u : Arr (F := F) S400000x128) : Arr (F := F) S100000x128 :=
  Host.scatterAdd scatter_S100000x128_S400000x1_S400000x128_1_0_0_1 (zeros (F := F))
    (broadcastInDim S400000x1 ![0] bcast_S400000_S400000x1_0 idx) u

/-- The 200000 edge rows added into the rows the index array names. -/
def scatW (idx : IArr (F := F) S200000) (u : Arr (F := F) S200000x128) : Arr (F := F) S100000x128 :=
  Host.scatterAdd scatter_S100000x128_S200000x1_S200000x128_1_0_0_1 (zeros (F := F))
    (broadcastInDim S200000x1 ![0] bcast_S200000_S200000x1_0 idx) u

/-- Three arrays of 128 columns side by side. -/
def cat3 (a s1 s2 : Arr (F := F) S100000x128) : Arr (F := F) S100000x384 :=
  concatenate S100000x384 1 [⟨S100000x128, a⟩, ⟨S100000x128, s1⟩, ⟨S100000x128, s2⟩]
    concatenates_S100000x128_S100000x128_S100000x128_S100000x384_d1

/-- A vector of 128 entries as every row of an array. -/
def rows (b : Arr (F := F) S128) : Arr (F := F) S100000x128 :=
  broadcastInDim S100000x128 ![0, 1] bcast_S1x128_S100000x128_0_1 (broadcastInDim S1x128 ![1] bcast_S128_S1x128_1 b)

/-- A column as every column of an array. -/
def cols (v : Arr (F := F) S100000x1) : Arr (F := F) S100000x128 :=
  broadcastInDim S100000x128 ![0, 1] bcast_S100000x1_S100000x128_0_1 v

/-- A scalar as a column. -/
def colOf (v : Arr (F := F) S_) : Arr (F := F) S100000x1 :=
  broadcastInDim S100000x1 ![] bcast_S_S100000x1 v

def layer1 (a s1 s2 : Arr (F := F) S100000x128) (W1 : Arr (F := F) S384x128) (b1 : Arr (F := F) S128) : Arr (F := F) S100000x128 :=
  maximumf (addf (Host.dotGeneral dot_S100000x384_S384x128_S100000x128_1_0_0_1_n_n none (cat3 a s1 s2) W1) (rows b1)) (zeros (F := F))

def layer2 (h : Arr (F := F) S100000x128) (W : Arr (F := F) S128x128) (b : Arr (F := F) S128) : Arr (F := F) S100000x128 :=
  maximumf (addf (Host.dotGeneral dot_S100000x128_S128x128_S100000x128_1_0_0_1_n_n none h W) (rows b)) (zeros (F := F))

def layer3 (h : Arr (F := F) S100000x128) (W : Arr (F := F) S128x128) (b : Arr (F := F) S128) : Arr (F := F) S100000x128 :=
  addf (Host.dotGeneral dot_S100000x128_S128x128_S100000x128_1_0_0_1_n_n none h W) (rows b)

/-- The sum of each row, from the zero word. -/
def rowSum (h : Arr (F := F) S100000x128) : Arr (F := F) S100000 :=
  Host.reduceAdd h (constant (F := F) S_ .f32 0x00000000#32) reducesTo_S100000x128_S100000_d1 h_S_

/-- A vector of row values as a column. -/
def asCol (v : Arr (F := F) S100000) : Arr (F := F) S100000x1 :=
  broadcastInDim S100000x1 ![0] bcast_S100000_S100000x1_0 v

def meanCol (h : Arr (F := F) S100000x128) : Arr (F := F) S100000x1 :=
  Host.divf (asCol (rowSum h)) (colOf (constant (F := F) S_ .f32 0x43000000#32))

/-- The divisor of the variance: 128 minus the integer 0 converted. -/
def varDen : Arr (F := F) S_ :=
  subf (constant (F := F) S_ .f32 0x43000000#32) (sitofp .f32 (constantI S_ 32 0#32))

def varCol (h : Arr (F := F) S100000x128) : Arr (F := F) S100000x1 :=
  select (broadcastInDim S100000x1 ![] bcast_S_S100000x1 (cmpf .ogt (varDen (F := F)) (constant (F := F) S_ .f32 0x00000000#32)))
    (Host.divf (asCol (rowSum (mulf (subf h (cols (meanCol h))) (subf h (cols (meanCol h)))))) (colOf (varDen (F := F))))
    (colOf (id (constant (F := F) S_ .f32 0x7FC00000#32)))

def normed (h : Arr (F := F) S100000x128) (g b : Arr (F := F) S128) : Arr (F := F) S100000x128 :=
  addf (mulf (mulf (subf h (cols (meanCol h)))
    (cols (Host.rsqrt (addf (varCol h) (colOf (constant (F := F) S_ .f32 0x3727C5AC#32)))))) (rows g)) (rows b)

/-- The reference's result of its thirteen arguments. -/
def refOut (a0 : Arr (F := F) S100000x128) (a1 : Arr (F := F) S400000x128) (a2 : Arr (F := F) S200000x128)
    (a3 : IArr (F := F) S400000) (a4 : IArr (F := F) S200000) (a5 : Arr (F := F) S384x128) (a6 : Arr (F := F) S128)
    (a7 : Arr (F := F) S128x128) (a8 : Arr (F := F) S128) (a9 : Arr (F := F) S128x128) (a10 a11 a12 : Arr (F := F) S128) :
    Arr (F := F) S100000x128 :=
  normed (layer3 (layer2 (layer1 a0 (scatM a3 a1) (scatW a4 a2) a5 a6) a7 a8) a9 a10) a11 a12

end Cert.ReferenceIdeal.RefValue

end
-- ==== Proof.RefRunOps.lean ====
/-
  The reference program as a straight line of operations, and its run as a fold.

  The reference's @main is a straight line of host operations once the three outlined functions it calls
  (the maximum with zero, twice; the variance of a row, which itself calls the three-line selection helper)
  are substituted at their call sites: seventy-one operations, each writing one buffer of its own.  Every
  weakly fair execution therefore terminates with each buffer at the fold of the operations' results over
  the launch contents; at the result buffer that fold is the composed term `RefValue.refOut` of the thirteen
  argument arrays, and no operation writes an argument buffer.
-/
import proofs.«120922_j52510270161469_1_alg».proof.Proof.RefTerm
import proofs.«120922_j52510270161469_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the called functions' operations in place of each call, over that call's
    own buffers. -/
abbrev ops : List (HloOp τ sig (Elt F)) :=
  [ StableHlo.nullary main_cst (constant S_ .f32 0x00000000#32),
    StableHlo.unary main_cst main_v0 (broadcastInDim S100000x128 ![] bcast_S_S100000x128 : (⟨S_, .f32⟩ : BufTy).Contents (Elt F) → (⟨S100000x128, .f32⟩ : BufTy).Contents (Elt F)),
    StableHlo.unary main_arg3 main_v1 (broadcastInDim S400000x1 ![0] bcast_S400000_S400000x1_0 : (⟨S400000, .i32⟩ : BufTy).Contents (Elt F) → (⟨S400000x1, .i32⟩ : BufTy).Contents (Elt F)),
    StableHlo.ternary main_v0 main_v1 main_arg1 main_v2 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_0 (constant S_ .f32 0x00000000#32),
    StableHlo.unary main_cst_0 main_v3 (broadcastInDim S100000x128 ![] bcast_S_S100000x128 : (⟨S_, .f32⟩ : BufTy).Contents (Elt F) → (⟨S100000x128, .f32⟩ : BufTy).Contents (Elt F)),
    StableHlo.unary main_arg4 main_v4 (broadcastInDim S200000x1 ![0] bcast_S200000_S200000x1_0 : (⟨S200000, .i32⟩ : BufTy).Contents (Elt F) → (⟨S200000x1, .i32⟩ : BufTy).Contents (Elt F)),
    StableHlo.ternary main_v3 main_v4 main_arg2 main_v5 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)),
    StableHlo.nary ![main_arg0, main_v2, main_v5] main_v6 (fun u => concatenate S100000x384 1 [⟨S100000x128, u 0⟩, ⟨S100000x128, u 1⟩, ⟨S100000x128, u 2⟩] concatenates_S100000x128_S100000x128_S100000x128_S100000x384_d1),
    StableHlo.binary main_v6 main_arg5 main_v7 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.unary main_arg6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S100000x128 ![0, 1] bcast_S1x128_S100000x128_0_1 : (⟨S1x128, .f32⟩ : BufTy).Contents (Elt F) → (⟨S100000x128, .f32⟩ : BufTy).Contents (Elt F)),
    StableHlo.binary main_v7 main_v9 main_v10 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v10 : StableHlo.TRef sig ⟨S100000x128, .f32⟩) main_call0.v0 main_call0.v1 maximumf,
    StableHlo.binary main_v11 main_arg7 main_v12 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S100000x128 ![0, 1] bcast_S1x128_S100000x128_0_1 : (⟨S1x128, .f32⟩ : BufTy).Contents (Elt F) → (⟨S100000x128, .f32⟩ : BufTy).Contents (Elt F)),
    StableHlo.binary main_v12 main_v14 main_v15 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v15 : StableHlo.TRef sig ⟨S100000x128, .f32⟩) main_call1.v0 main_call1.v1 maximumf,
    StableHlo.binary main_v16 main_arg9 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v19 main_v20 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v20 main_cst_1 main_v21 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v21 main_v22 (broadcastInDim S100000x1 ![0] bcast_S100000_S100000x1_0 : (⟨S100000, .f32⟩ : BufTy).Contents (Elt F) → (⟨S100000x1, .f32⟩ : BufTy).Contents (Elt F)),
    StableHlo.nullary main_cst_2 (constant S_ .f32 0x43000000#32),
    StableHlo.unary main_cst_2 main_v23 (broadcastInDim S100000x1 ![] bcast_S_S100000x1 : (⟨S_, .f32⟩ : BufTy).Contents (Elt F) → (⟨S100000x1, .f32⟩ : BufTy).Contents (Elt F)),
    StableHlo.binary main_v22 main_v23 main_v24 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.TRef.nullary main_call2.cst (constant S_ .f32 0x00000000#32),
    StableHlo.TRef.binary (.of main_v20 : StableHlo.TRef sig ⟨S100000x128, .f32⟩) main_call2.cst main_call2.v0 (fun x v => Host.reduceAdd x v reducesTo_S100000x128_S100000_d1 h_S_),
    StableHlo.TRef.unary main_call2.v0 main_call2.v1 (broadcastInDim S100000x1 ![0] bcast_S100000_S100000x1_0),
    StableHlo.TRef.nullary main_call2.cst_0 (constant S_ .f32 0x43000000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x128 ![0, 1] bcast_S100000x1_S100000x128_0_1),
    StableHlo.TRef.binary (.of main_v20 : StableHlo.TRef sig ⟨S100000x128, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v24 main_v26 (broadcastInDim S100000x128 ![0, 1] bcast_S100000x1_S100000x128_0_1 : (⟨S100000x1, .f32⟩ : BufTy).Contents (Elt F) → (⟨S100000x128, .f32⟩ : BufTy).Contents (Elt F)),
    StableHlo.binary main_v20 main_v26 main_v27 (subf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x3727C5AC#32),
    StableHlo.unary main_cst_3 main_v28 (broadcastInDim S100000x1 ![] bcast_S_S100000x1 : (⟨S_, .f32⟩ : BufTy).Contents (Elt F) → (⟨S100000x1, .f32⟩ : BufTy).Contents (Elt F)),
    StableHlo.binary main_v25 main_v28 main_v29 (addf : (⟨S100000x1, .f32⟩ : BufTy).Contents (Elt F) → (⟨S100000x1, .f32⟩ : BufTy).Contents (Elt F) → (⟨S100000x1, .f32⟩ : BufTy).Contents (Elt F)),
    StableHlo.unary main_v29 main_v30 (Host.rsqrt : (⟨S100000x1, .f32⟩ : BufTy).Contents (Elt F) → (⟨S100000x1, .f32⟩ : BufTy).Contents (Elt F)),
    StableHlo.unary main_v30 main_v31 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v31 main_v32 (mulf : (⟨S100000x128, .f32⟩ : BufTy).Contents (Elt F) → (⟨S100000x128, .f32⟩ : BufTy).Contents (Elt F) → (⟨S100000x128, .f32⟩ : BufTy).Contents (Elt F)),
    StableHlo.unary main_arg11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (mulf : (⟨S100000x128, .f32⟩ : BufTy).Contents (Elt F) → (⟨S100000x128, .f32⟩ : BufTy).Contents (Elt F) → (⟨S100000x128, .f32⟩ : BufTy).Contents (Elt F)),
    StableHlo.unary main_arg12 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)) ]

set_option maxRecDepth 4096 in
/-- @main is that straight line: the functions' definitions unfolded at their calls, sequencing reassociated. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every buffer ends at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference program's run, read back.

  Every weakly fair execution of the reference terminates with each buffer at the fold of its seventy-one
  operations' results over the launch contents.  Read at the result buffer, operation by operation from the
  last one back, that fold is the composed term `RefValue.refOut` of the thirteen argument arrays: the two
  scatter-adds into the zero array, the three arrays side by side, three products with a weight matrix each
  followed by the bias (and, after the first two, the maximum with zero), then the row mean, the guarded row
  variance, and the normalized rows scaled and shifted.  No operation writes an argument buffer, so each
  argument ends as it started.
-/
import proofs.«120922_j52510270161469_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A three-operand operation's result with each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The fold of a list of operations read at a reference, in one rewriting pass: each operation's result at its own
    buffer is its function of its operands' contents, and at any other buffer what was there. -/
macro "fold_results" : tactic =>
  `(tactic| (simp (disch := decide) only [after_cons, after_nil,
      nullary_result', unary_result', binary_result', ternary_result', nary3_result',
      nullary_result_ne', unary_result_ne', binary_result_ne', ternary_result_ne', nary_result_ne']))

set_option maxRecDepth 8192 in
/-- The fold at the result buffer is the composed term of the argument arrays. -/
theorem out_eq (V : Valuation τ sig (Elt F)) :
    after ops V (main_v38 : DevRef τ sig)
      = RefValue.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  fold_results
  rfl

theorem arg0_eq (V : Valuation τ sig (Elt F)) :
    after ops V (main_arg0 : DevRef τ sig) = V (main_arg0 : DevRef τ sig) := by
  fold_results

theorem arg1_eq (V : Valuation τ sig (Elt F)) :
    after ops V (main_arg1 : DevRef τ sig) = V (main_arg1 : DevRef τ sig) := by
  fold_results

theorem arg2_eq (V : Valuation τ sig (Elt F)) :
    after ops V (main_arg2 : DevRef τ sig) = V (main_arg2 : DevRef τ sig) := by
  fold_results

theorem arg3_eq (V : Valuation τ sig (Elt F)) :
    after ops V (main_arg3 : DevRef τ sig) = V (main_arg3 : DevRef τ sig) := by
  fold_results

theorem arg4_eq (V : Valuation τ sig (Elt F)) :
    after ops V (main_arg4 : DevRef τ sig) = V (main_arg4 : DevRef τ sig) := by
  fold_results

theorem arg5_eq (V : Valuation τ sig (Elt F)) :
    after ops V (main_arg5 : DevRef τ sig) = V (main_arg5 : DevRef τ sig) := by
  fold_results

theorem arg6_eq (V : Valuation τ sig (Elt F)) :
    after ops V (main_arg6 : DevRef τ sig) = V (main_arg6 : DevRef τ sig) := by
  fold_results

theorem arg7_eq (V : Valuation τ sig (Elt F)) :
    after ops V (main_arg7 : DevRef τ sig) = V (main_arg7 : DevRef τ sig) := by
  fold_results

theorem arg8_eq (V : Valuation τ sig (Elt F)) :
    after ops V (main_arg8 : DevRef τ sig) = V (main_arg8 : DevRef τ sig) := by
  fold_results

theorem arg9_eq (V : Valuation τ sig (Elt F)) :
    after ops V (main_arg9 : DevRef τ sig) = V (main_arg9 : DevRef τ sig) := by
  fold_results

theorem arg10_eq (V : Valuation τ sig (Elt F)) :
    after ops V (main_arg10 : DevRef τ sig) = V (main_arg10 : DevRef τ sig) := by
  fold_results

theorem arg11_eq (V : Valuation τ sig (Elt F)) :
    after ops V (main_arg11 : DevRef τ sig) = V (main_arg11 : DevRef τ sig) := by
  fold_results

theorem arg12_eq (V : Valuation τ sig (Elt F)) :
    after ops V (main_arg12 : DevRef τ sig) = V (main_arg12 : DevRef τ sig) := by
  fold_results

/-- On every device, for any float values, from any memory with zero counters: every weakly fair execution of
    @main terminates with the result buffer at the composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v38).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_fold m ρ)

end Cert.ReferenceIdeal.RefRun

end
-- ==== Proof.RefReadLayout.lean ====
/-
  The reference's layout operations read at coordinates: a vector spread over the rows, a column spread over the
  columns, a scalar as a column or as a whole array, a vector of row values as a column, and three arrays side by side.
-/
import proofs.«120922_j52510270161469_1_alg».proof.Proof.RefTerm
import proofs.«120922_j52510270161469_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

example (a0 : Arr (F := Ideal) S100000x128) : (⟨2, ![100000, 128]⟩ : Shape).Idx → EReal := a0

/-- A vector spread over the rows reads the vector at the column. -/
theorem rows_apply (b : Arr (F := Ideal) S128) (r : Fin 100000) (q : Fin 128) :
    rows (F := Ideal) b (ix2 r q) = b (ix1 q) := by
  unfold rows
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- A column spread over the columns reads the column at the row. -/
theorem cols_apply (v : Arr (F := Ideal) S100000x1) (r : Fin 100000) (q : Fin 128) :
    cols (F := Ideal) v (ix2 r q) = v (ix2 r (0 : Fin 1)) := by
  unfold cols
  refine broadcastInDim_apply _ _ _ (ix2 r q) (ix2 r (0 : Fin 1)) fun a => ?_
  match a with
  | ⟨0, _⟩ => rfl
  | ⟨1, _⟩ => rfl

/-- A scalar as a column reads the scalar. -/
theorem colOf_apply (s : Arr (F := Ideal) S_) (r : Fin 100000) :
    colOf (F := Ideal) s (ix2 r (0 : Fin 1)) = s ix0 := by
  unfold colOf
  exact broadcastInDim_scalar_apply _ _ _

/-- A vector of row values as a column reads the vector at the row. -/
theorem asCol_apply (v : Arr (F := Ideal) S100000) (r : Fin 100000) :
    asCol (F := Ideal) v (ix2 r (0 : Fin 1)) = v (ix1 r) := by
  unfold asCol
  refine broadcastInDim_apply _ _ _ (ix2 r (0 : Fin 1)) (ix1 r) fun a => ?_
  match a with
  | ⟨0, _⟩ => rfl

/-- The zero array reads the zero word. -/
theorem zeros_apply (r : Fin 100000) (q : Fin 128) :
    zeros (F := Ideal) (ix2 r q) = Cert.Spec.zeroW := by
  unfold zeros
  exact broadcastInDim_scalar_apply _ _ _

end Cert.ReferenceIdeal.RefRead

end
-- ==== Proof.LibBlockedSum.lean ====
/-
  General lemmas for a contraction that a kernel accumulates block by block along the contracted axis.

  Arrays are read at NATURAL coordinates (their entry inside the extents, zero outside), so that a block's offset
  arithmetic is plain arithmetic on naturals: at2 for a matrix, at1 for a vector, and at2_of_idx / at1_of_idx to pass
  from an entry at an index to the reading at the index's coordinates.

  A sum over 0 .. B n - 1 is the sum, over the n consecutive blocks, of each block's B terms (sum_range_blocks over
  ranges, sum_fin_blocks with the inner and the whole sum over finite index types). Only associativity and
  commutativity of + are used, so the lemmas hold in any commutative additive monoid, in particular on the extended
  reals without any finiteness assumption. blocked_contraction is the form a matrix product with a bias takes:
  accumulated from zero over n blocks of B along the contracted axis, then the bias added, against the whole
  contraction plus the bias.
-/
import Idealize.ShloMosaic.Lib.ValueIdx
import Idealize.ShloMosaic.PureOps.Ideal.Laws

noncomputable section

namespace Cert.BlockedSum

open Idealize.ShloMosaic Idealize.ShloMosaic.ValueIdx

/-- A matrix read at natural coordinates: its entry inside the extents, zero outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A vector read at a natural coordinate: its entry inside the extent, zero outside. -/
def at1 {n : ℕ} (x : (⟨1, ![n]⟩ : Shape).Idx → EReal) (a : ℕ) : EReal :=
  if h : a < n then x (ix1 ⟨a, h⟩) else 0

/-- An entry of a matrix is its reading at the index's coordinates. -/
theorem at2_of_idx {n0 n1 : ℕ} (x : (⟨2, ![n0, n1]⟩ : Shape).Idx → EReal) (j : (⟨2, ![n0, n1]⟩ : Shape).Idx)
    (a b : ℕ) (ha : (j 0).val = a) (hb : (j 1).val = b) : x j = at2 x a b := by
  subst ha; subst hb
  unfold at2
  rw [dif_pos ⟨idx2_lt0 j, idx2_lt1 j⟩]
  exact congrArg x (eq_ix2 j)

/-- An entry of a vector is its reading at the index's coordinate. -/
theorem at1_of_idx {n : ℕ} (x : (⟨1, ![n]⟩ : Shape).Idx → EReal) (j : (⟨1, ![n]⟩ : Shape).Idx)
    (a : ℕ) (ha : (j 0).val = a) : x j = at1 x a := by
  subst ha
  unfold at1
  rw [dif_pos (show (j 0).val < n from (j 0).isLt)]
  exact congrArg x (eq_ix1 j)

/-- A sum over 0 .. B n - 1 is the sum over n consecutive blocks of B terms each. -/
theorem sum_range_blocks {β : Type*} [AddCommMonoid β] (f : ℕ → β) (B : ℕ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The same with each block and the whole sum over finite index types: N = B n terms as n blocks of B. -/
theorem sum_fin_blocks {β : Type*} [AddCommMonoid β] (f : ℕ → β) (B n N : ℕ) (hN : N = B * n) :
    ∑ s ∈ Finset.range n, ∑ k : Fin B, f (B * s + k.val) = ∑ k : Fin N, f k.val := by
  subst hN
  rw [Fin.sum_univ_eq_sum_range (fun k => f k) (B * n), ← sum_range_blocks f B n]
  exact Finset.sum_congr rfl fun s _ => Fin.sum_univ_eq_sum_range (fun k => f (B * s + k)) B

/-- A contraction over N = B n terms, accumulated from zero in n blocks of B, then the bias added: the whole
    contraction plus the bias. -/
theorem blocked_contraction (X W : ℕ → ℕ → EReal) (b : ℕ → EReal) (p q : ℕ) (B n N : ℕ) (hN : N = B * n) :
    (0 + ∑ s ∈ Finset.range n, ∑ k : Fin B, X p (B * s + k.val) * W (B * s + k.val) q) + b q
      = (∑ k : Fin N, X p k.val * W k.val q) + b q := by
  rw [zero_add]
  exact congrArg (· + b q) (sum_fin_blocks (fun k => X p k * W k q) B n N hN)

end Cert.BlockedSum

end
-- ==== Proof.RefReadDot.lean ====
/-
  The reference's matrix products read at coordinates. A plain rows-by-columns product on the host is, at (p, q), the
  sum over the shared axis of the products of row p of the left operand and column q of the right. For the first
  layer, whose left operand is three arrays side by side, the sum over the 384 shared coordinates is the sum of the
  three blocks' sums, grouped from the left.
-/
import proofs.«120922_j52510270161469_1_alg».proof.Proof.RefTerm
import proofs.«120922_j52510270161469_1_alg».proof.Proof.Spec
import proofs.«120922_j52510270161469_1_alg».proof.Proof.LibBlockedSum
import proofs.«120922_j52510270161469_1_alg».proof.Proof.LibPlainMatmul
import Idealize.ShloMosaic.Lib.ValueIdx
import Idealize.ShloMosaic.PureOps.Ideal.Laws

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

open Cert.LibPlainMatmul

/-- A plain m x k by k x n product on the host reads, at (p, q), the sum over the shared axis of the products of
    row p of the left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (l : FVec Ideal ⟨2, ![m, k]⟩ φ₁) (r : FVec Ideal ⟨2, ![k, n]⟩ φ₂) (p : Fin m) (q : Fin n) :
    Host.dotGeneral (F := Ideal) (plainDims wf) none l r (ix2 p q) = ∑ c : Fin k, l (ix2 p c) * r (ix2 c q) := by
  refine (Ideal.dotGeneral_apply (plainDims wf) none .single l r (ix2 p q)).trans ?_
  rw [← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

/-- A 128-column product of the program at (r, q). -/
theorem dot128_apply (h : Arr (F := Ideal) S100000x128) (W : Arr (F := Ideal) S128x128) (r : Fin 100000) (q : Fin 128) :
    Host.dotGeneral (F := Ideal) (φ₁ := .f32) (φ₂ := .f32) dot_S100000x128_S128x128_S100000x128_1_0_0_1_n_n none h W (ix2 r q)
      = ∑ k : Fin 128, h (ix2 r k) * W (ix2 k q) :=
  dotGeneral_plain _ h W r q

/-- The 384-column product of the program at (r, q), over the whole shared axis. -/
theorem dot384_apply (x : Arr (F := Ideal) S100000x384) (W : Arr (F := Ideal) S384x128) (r : Fin 100000) (q : Fin 128) :
    Host.dotGeneral (F := Ideal) (φ₁ := .f32) (φ₂ := .f32) dot_S100000x384_S384x128_S100000x128_1_0_0_1_n_n none x W (ix2 r q)
      = ∑ c : Fin 384, x (ix2 r c) * W (ix2 c q) :=
  dotGeneral_plain _ x W r q

end Cert.ReferenceIdeal.RefRead

end
-- ==== Proof.RefReadCat.lean ====
/-
  Three arrays of 128 columns side by side, read at a column of one of the three blocks: the block's array at the
  column inside the block.
-/
import proofs.«120922_j52510270161469_1_alg».proof.Proof.RefTerm
import proofs.«120922_j52510270161469_1_alg».proof.Proof.Spec
import Idealize.ShloMosaic.Lib.ValueIdx
import Idealize.ShloMosaic.Lib.Pipeline.Value

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- Column 128 * 0 + k of the three arrays side by side is column k of the first. -/
theorem cat3_apply0 (a s1 s2 : Arr (F := Ideal) S100000x128) (r : Fin 100000) (k : Fin 128) :
    cat3 (F := Ideal) a s1 s2 (ix2 r (Cert.Spec.blockRow 0 k)) = a (ix2 r k) := by
  unfold cat3
  refine concatenate_apply_piece (t := S100000x384) (1 : Fin 2) [⟨S100000x128, a⟩, ⟨S100000x128, s1⟩, ⟨S100000x128, s2⟩] _ (ix2 r (Cert.Spec.blockRow 0 k)) 0 (by show (0 : ℕ) < 3; omega) S100000x128 a rfl rfl 0 rfl
    (ix2 r k) (fun b hb => ?_) ?_
  · match b with
    | ⟨0, _⟩ => rfl
    | ⟨1, _⟩ => exact absurd rfl hb
  · show 0 + k.val = 128 * 0 + k.val
    omega

/-- Column 128 * 1 + k is column k of the second. -/
theorem cat3_apply1 (a s1 s2 : Arr (F := Ideal) S100000x128) (r : Fin 100000) (k : Fin 128) :
    cat3 (F := Ideal) a s1 s2 (ix2 r (Cert.Spec.blockRow 1 k)) = s1 (ix2 r k) := by
  unfold cat3
  refine concatenate_apply_piece (t := S100000x384) (1 : Fin 2) [⟨S100000x128, a⟩, ⟨S100000x128, s1⟩, ⟨S100000x128, s2⟩] _ (ix2 r (Cert.Spec.blockRow 1 k)) 1 (by show (1 : ℕ) < 3; omega) S100000x128 s1 rfl rfl 128 rfl
    (ix2 r k) (fun b hb => ?_) ?_
  · match b with
    | ⟨0, _⟩ => rfl
    | ⟨1, _⟩ => exact absurd rfl hb
  · show 128 + k.val = 128 * 1 + k.val
    omega

/-- Column 128 * 2 + k is column k of the third. -/
theorem cat3_apply2 (a s1 s2 : Arr (F := Ideal) S100000x128) (r : Fin 100000) (k : Fin 128) :
    cat3 (F := Ideal) a s1 s2 (ix2 r (Cert.Spec.blockRow 2 k)) = s2 (ix2 r k) := by
  unfold cat3
  refine concatenate_apply_piece (t := S100000x384) (1 : Fin 2) [⟨S100000x128, a⟩, ⟨S100000x128, s1⟩, ⟨S100000x128, s2⟩] _ (ix2 r (Cert.Spec.blockRow 2 k)) 2 (by show (2 : ℕ) < 3; omega) S100000x128 s2 rfl rfl 256 rfl
    (ix2 r k) (fun b hb => ?_) ?_
  · match b with
    | ⟨0, _⟩ => rfl
    | ⟨1, _⟩ => exact absurd rfl hb
  · show 256 + k.val = 128 * 2 + k.val
    omega

end Cert.ReferenceIdeal.RefRead

end
-- ==== Proof.RefReadDot384.lean ====
/-
  The first layer's product. Its left operand is three arrays of 128 columns side by side, so the sum over the 384
  shared coordinates is the sum of the three blocks' sums, grouped from the left; only associativity and
  commutativity of the addition are used.
-/
import proofs.«120922_j52510270161469_1_alg».proof.Proof.RefTerm
import proofs.«120922_j52510270161469_1_alg».proof.Proof.Spec
import proofs.«120922_j52510270161469_1_alg».proof.Proof.LibBlockedSum
import proofs.«120922_j52510270161469_1_alg».proof.Proof.RefReadCat
import proofs.«120922_j52510270161469_1_alg».proof.Proof.RefReadDot

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- A function of a coordinate below 384 read at a natural number: zero from 384 on. -/
def natRead {β : Type*} [AddCommMonoid β] (g : Fin 384 → β) (n : ℕ) : β := if h : n < 384 then g ⟨n, h⟩ else 0

/-- A sum over 384 coordinates is the sum of its three blocks of 128, grouped from the left. -/
theorem sum_three_blocks {β : Type*} [AddCommMonoid β] (g : Fin 384 → β) :
    ∑ c : Fin 384, g c
      = ((∑ k : Fin 128, g (Cert.Spec.blockRow 0 k)) + ∑ k : Fin 128, g (Cert.Spec.blockRow 1 k))
        + ∑ k : Fin 128, g (Cert.Spec.blockRow 2 k) := by
  have hf : ∀ c : Fin 384, g c = natRead g c.val := fun c => by
    unfold natRead
    rw [dif_pos c.isLt]
  have hb : ∀ (s : Fin 3) (k : Fin 128), natRead g (128 * s.val + k.val) = g (Cert.Spec.blockRow s k) := fun s k => by
    unfold natRead
    rw [dif_pos (by have := s.isLt; have := k.isLt; omega)]
    rfl
  rw [Finset.sum_congr rfl fun c _ => hf c, ← Cert.BlockedSum.sum_fin_blocks (natRead g) 128 3 384 rfl]
  rw [Finset.sum_range_succ, Finset.sum_range_succ, Finset.sum_range_succ, Finset.sum_range_zero, zero_add]
  exact congrArg₂ (· + ·) (congrArg₂ (· + ·) (Finset.sum_congr rfl fun k _ => hb 0 k)
    (Finset.sum_congr rfl fun k _ => hb 1 k)) (Finset.sum_congr rfl fun k _ => hb 2 k)

/-- The first layer's product at (r, q): the node's own row against the first block of rows of the weights, the two
    aggregated rows against the second and the third. -/
theorem dot384_cat3_apply (a s1 s2 : Arr (F := Ideal) S100000x128) (W : Arr (F := Ideal) S384x128)
    (r : Fin 100000) (q : Fin 128) :
    Host.dotGeneral (F := Ideal) (φ₁ := .f32) (φ₂ := .f32) dot_S100000x384_S384x128_S100000x128_1_0_0_1_n_n none
        (cat3 (F := Ideal) a s1 s2) W (ix2 r q)
      = ((∑ k : Fin 128, a (ix2 r k) * W (ix2 (Cert.Spec.blockRow 0 k) q))
          + ∑ k : Fin 128, s1 (ix2 r k) * W (ix2 (Cert.Spec.blockRow 1 k) q))
        + ∑ k : Fin 128, s2 (ix2 r k) * W (ix2 (Cert.Spec.blockRow 2 k) q) := by
  refine (dot384_apply _ W r q).trans ?_
  refine (sum_three_blocks (fun c => cat3 (F := Ideal) a s1 s2 (ix2 r c) * W (ix2 c q))).trans ?_
  exact congrArg₂ (· + ·) (congrArg₂ (· + ·)
    (Finset.sum_congr rfl fun k _ => congrArg (· * W (ix2 (Cert.Spec.blockRow 0 k) q)) (cat3_apply0 a s1 s2 r k))
    (Finset.sum_congr rfl fun k _ => congrArg (· * W (ix2 (Cert.Spec.blockRow 1 k) q)) (cat3_apply1 a s1 s2 r k)))
    (Finset.sum_congr rfl fun k _ => congrArg (· * W (ix2 (Cert.Spec.blockRow 2 k) q)) (cat3_apply2 a s1 s2 r k))

end Cert.ReferenceIdeal.RefRead

end
-- ==== Proof.RefReadLayers.lean ====
/-
  The three layers read at (r, q): each is the specification's layer of row r of its operand.
-/
import proofs.«120922_j52510270161469_1_alg».proof.Proof.RefTerm
import proofs.«120922_j52510270161469_1_alg».proof.Proof.Spec
import proofs.«120922_j52510270161469_1_alg».proof.Proof.RefReadLayout
import proofs.«120922_j52510270161469_1_alg».proof.Proof.RefReadDot
import proofs.«120922_j52510270161469_1_alg».proof.Proof.RefReadDot384

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- The first layer at (r, q): the maximum with zero of the first linear form of the three rows. -/
theorem layer1_apply (a s1 s2 : Arr (F := Ideal) S100000x128) (W1 : Arr (F := Ideal) S384x128) (b1 : Arr (F := Ideal) S128)
    (r : Fin 100000) (q : Fin 128) :
    layer1 (F := Ideal) a s1 s2 W1 b1 (ix2 r q)
      = Cert.Spec.relu (Cert.Spec.lin1 (fun k => a (ix2 r k)) (fun k => s1 (ix2 r k)) (fun k => s2 (ix2 r k))
          (fun k q => W1 (ix2 k q)) (fun q => b1 (ix1 q)) q) := by
  unfold layer1 Cert.Spec.relu Cert.Spec.lin1
  refine (maximumf_apply _ _ _).trans ?_
  refine congrArg₂ max ?_ (zeros_apply r q)
  refine (addf_apply _ _ _).trans ?_
  exact congrArg₂ (· + ·) (dot384_cat3_apply a s1 s2 W1 r q) (rows_apply b1 r q)

/-- The second layer at (r, q): the maximum with zero of the linear form of row r. -/
theorem layer2_apply (h : Arr (F := Ideal) S100000x128) (W : Arr (F := Ideal) S128x128) (b : Arr (F := Ideal) S128)
    (r : Fin 100000) (q : Fin 128) :
    layer2 (F := Ideal) h W b (ix2 r q)
      = Cert.Spec.relu (Cert.Spec.lin (fun k => h (ix2 r k)) (fun k q => W (ix2 k q)) (fun q => b (ix1 q)) q) := by
  unfold layer2 Cert.Spec.relu Cert.Spec.lin
  refine (maximumf_apply _ _ _).trans ?_
  refine congrArg₂ max ?_ (zeros_apply r q)
  refine (addf_apply _ _ _).trans ?_
  exact congrArg₂ (· + ·) (dot128_apply h W r q) (rows_apply b r q)

/-- The third layer at (r, q): the linear form of row r, no maximum. -/
theorem layer3_apply (h : Arr (F := Ideal) S100000x128) (W : Arr (F := Ideal) S128x128) (b : Arr (F := Ideal) S128)
    (r : Fin 100000) (q : Fin 128) :
    layer3 (F := Ideal) h W b (ix2 r q)
      = Cert.Spec.lin (fun k => h (ix2 r k)) (fun k q => W (ix2 k q)) (fun q => b (ix1 q)) q := by
  unfold layer3 Cert.Spec.lin
  refine (addf_apply _ _ _).trans ?_
  exact congrArg₂ (· + ·) (dot128_apply h W r q) (rows_apply b r q)

/-- Row r of the three layers composed is the specification's three layers of the three input rows. -/
theorem mlp_row (a s1 s2 : Arr (F := Ideal) S100000x128) (W1 : Arr (F := Ideal) S384x128) (b1 : Arr (F := Ideal) S128)
    (W2 : Arr (F := Ideal) S128x128) (b2 : Arr (F := Ideal) S128) (W3 : Arr (F := Ideal) S128x128) (b3 : Arr (F := Ideal) S128)
    (r : Fin 100000) :
    (fun k : Fin 128 => layer3 (F := Ideal) (layer2 (F := Ideal) (layer1 (F := Ideal) a s1 s2 W1 b1) W2 b2) W3 b3 (ix2 r k))
      = Cert.Spec.mlp (fun k => a (ix2 r k)) (fun k => s1 (ix2 r k)) (fun k => s2 (ix2 r k))
          (fun k q => W1 (ix2 k q)) (fun q => b1 (ix1 q)) (fun k q => W2 (ix2 k q)) (fun q => b2 (ix1 q))
          (fun k q => W3 (ix2 k q)) (fun q => b3 (ix1 q)) := by
  funext k
  unfold Cert.Spec.mlp
  refine (layer3_apply _ W3 b3 r k).trans ?_
  refine congrArg (fun h => Cert.Spec.lin h (fun k q => W3 (ix2 k q)) (fun q => b3 (ix1 q)) k) (funext fun j => ?_)
  refine (layer2_apply _ W2 b2 r j).trans ?_
  refine congrArg (fun h => Cert.Spec.relu (Cert.Spec.lin h (fun k q => W2 (ix2 k q)) (fun q => b2 (ix1 q)) j)) (funext fun i => ?_)
  exact layer1_apply a s1 s2 W1 b1 r i

end Cert.ReferenceIdeal.RefRead

end
-- ==== Proof.RefReadSum.lean ====
/-
  The reference's row sums: the sum of a row from the zero word is the sum of the row's 128 entries.
-/
import proofs.«120922_j52510270161469_1_alg».proof.Proof.RefTerm
import proofs.«120922_j52510270161469_1_alg».proof.Proof.Spec
import Idealize.ShloMosaic.Lib.ValueIdx
import Idealize.ShloMosaic.Lib.IdealHost
import Idealize.ShloMosaic.PureOps.Ideal.Laws

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- The sum of row r, started from the zero word, is the sum of the row's entries. -/
theorem rowSum_apply (h : Arr (F := Ideal) S100000x128) (r : Fin 100000) :
    rowSum (F := Ideal) h (ix1 r) = ∑ k : Fin 128, h (ix2 r k) := by
  unfold rowSum
  have hR : Shape.Reduces S100000x128 [1] S100000 :=
    ⟨reducesTo_S100000x128_S100000_d1.1, Nat.one_pos, reducesTo_S100000x128_S100000_d1.2⟩
  refine (hostReduceAdd_apply h _ _ _ (ix1 r)).trans ?_
  refine (Ideal.hostReduceAdd_single _ hR h _ (ix1 r)).trans ?_
  show Ideal.ofBits .f32 0x00000000#32 + _ = _
  rw [Ideal.ofBits_zero_f32, zero_add]
  refine Finset.sum_congr rfl fun k _ => congrArg h ?_
  funext a
  match a with
  | ⟨0, _⟩ => rfl
  | ⟨1, _⟩ => rfl

end Cert.ReferenceIdeal.RefRead

end
-- ==== Proof.RefReadConsts.lean ====
/-
  The two literal words the variance's guard meets, as extended reals: the word for 128 is the real 128, so the
  divisor 128 - 0 computed from the integer 0 is the word for 128 again, it exceeds the zero word, and the guard is
  the true bit at every row.
-/
import proofs.«120922_j52510270161469_1_alg».proof.Proof.RefTerm
import proofs.«120922_j52510270161469_1_alg».proof.Proof.Spec
import Idealize.ShloMosaic.Lib.ValueIdx
import Idealize.ShloMosaic.Lib.IdealHost
import Idealize.ShloMosaic.PureOps.Ideal.Laws

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- The word for 128 is the real 128: sign 0, exponent 134, fraction 0. -/
theorem lenW_eq : Cert.Spec.lenW = ((128 : ℝ) : EReal) := by
  show Ideal.ofBits .f32 0x43000000#32 = _
  simp [Ideal.ofBits, Ideal.ieee, -EReal.coe_mul]; norm_num

/-- The variance's divisor, 128 minus the integer 0 converted, is the word for 128. -/
theorem varDen_apply : varDen (F := Ideal) ix0 = Cert.Spec.lenW := by
  show Ideal.ofBits .f32 0x43000000#32 - (((0#32 : BitVec 32).toInt : ℝ) : EReal) = _
  rw [show (0#32 : BitVec 32).toInt = 0 from rfl, Int.cast_zero, EReal.coe_zero, sub_zero]

/-- The guard of the variance's quotient is the true bit at every row: 128 exceeds 0. -/
theorem varGuard_apply (r : Fin 100000) :
    broadcastInDim S100000x1 ![] bcast_S_S100000x1
        (cmpf .ogt (varDen (F := Ideal)) (constant (F := Ideal) S_ .f32 0x00000000#32)) (ix2 r (0 : Fin 1)) = 1#1 := by
  refine (broadcastInDim_scalar_apply _ _ _).trans ?_
  show Ideal.cmp .ogt (varDen (F := Ideal) ix0) (Ideal.ofBits .f32 0x00000000#32) = 1#1
  rw [varDen_apply, Ideal.ofBits_zero_f32, lenW_eq]
  show BitVec.ofBool (decide ((0 : EReal) < ((128 : ℝ) : EReal))) = 1#1
  rw [decide_eq_true (by exact_mod_cast (by norm_num : (0 : ℝ) < 128))]
  rfl

end Cert.ReferenceIdeal.RefRead

end
-- ==== Proof.RefReadNorm.lean ====
/-
  The normalization read at (r, q): the mean and the variance of a row as columns, and the normalized, scaled and
  shifted row. The variance's guard is the true bit, so its quotient is taken; its divisor is the word for 128.
-/
import proofs.«120922_j52510270161469_1_alg».proof.Proof.RefTerm
import proofs.«120922_j52510270161469_1_alg».proof.Proof.Spec
import proofs.«120922_j52510270161469_1_alg».proof.Proof.RefReadLayout
import proofs.«120922_j52510270161469_1_alg».proof.Proof.RefReadSum
import proofs.«120922_j52510270161469_1_alg».proof.Proof.RefReadConsts
import Idealize.ShloMosaic.Lib.ValueIdx
import Idealize.ShloMosaic.Lib.IdealHost

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- The mean column at row r is the mean of row r. -/
theorem meanCol_apply (h : Arr (F := Ideal) S100000x128) (r : Fin 100000) :
    meanCol (F := Ideal) h (ix2 r (0 : Fin 1)) = Cert.Spec.mean (fun k => h (ix2 r k)) := by
  unfold meanCol Cert.Spec.mean
  refine (hostDivf_apply _ _ _).trans ?_
  refine congrArg₂ Ideal.div ((asCol_apply _ r).trans (rowSum_apply h r)) ?_
  exact colOf_apply _ r

/-- A row less its mean spread over the columns, at (r, q): the centred row. -/
theorem centredArr_apply (h : Arr (F := Ideal) S100000x128) (r : Fin 100000) (q : Fin 128) :
    subf (F := Ideal) (s := S100000x128) (φ := .f32) h (cols (F := Ideal) (meanCol (F := Ideal) h)) (ix2 r q) = Cert.Spec.centred (fun k => h (ix2 r k)) q := by
  unfold Cert.Spec.centred
  refine (subf_apply _ _ _).trans ?_
  exact congrArg (h (ix2 r q) - ·) ((cols_apply _ r q).trans (meanCol_apply h r))

/-- The variance column at row r is the mean of the squares of the centred row r. -/
theorem varCol_apply (h : Arr (F := Ideal) S100000x128) (r : Fin 100000) :
    varCol (F := Ideal) h (ix2 r (0 : Fin 1))
      = Cert.Spec.mean (fun k => Cert.Spec.centred (fun j => h (ix2 r j)) k * Cert.Spec.centred (fun j => h (ix2 r j)) k) := by
  unfold varCol
  refine (select_apply _ _ _ _).trans ?_
  rw [varGuard_apply r, select_one]
  unfold Cert.Spec.mean
  refine (hostDivf_apply _ _ _).trans ?_
  refine congrArg₂ Ideal.div ((asCol_apply _ r).trans ((rowSum_apply _ r).trans ?_)) ((colOf_apply _ r).trans varDen_apply)
  refine Finset.sum_congr rfl fun k _ => ?_
  refine (mulf_apply _ _ _).trans ?_
  exact congrArg₂ (· * ·) (centredArr_apply h r k) (centredArr_apply h r k)

/-- The normalized, scaled and shifted array at (r, q): the specification's normalization of row r. -/
theorem normed_apply (h : Arr (F := Ideal) S100000x128) (g b : Arr (F := Ideal) S128) (r : Fin 100000) (q : Fin 128) :
    normed (F := Ideal) h g b (ix2 r q)
      = Cert.Spec.lnorm (fun k => h (ix2 r k)) (fun k => g (ix1 k)) (fun k => b (ix1 k)) q := by
  unfold normed Cert.Spec.lnorm
  refine (addf_apply _ _ _).trans ?_
  refine congrArg₂ (· + ·) ?_ (rows_apply b r q)
  refine (mulf_apply _ _ _).trans ?_
  refine congrArg₂ (· * ·) ?_ (rows_apply g r q)
  refine (mulf_apply _ _ _).trans ?_
  refine congrArg₂ (· * ·) (centredArr_apply h r q) ?_
  refine (cols_apply _ r q).trans ?_
  show Ideal.rsqrt (addf (F := Ideal) (s := S100000x1) (φ := .f32) (varCol (F := Ideal) h) (colOf (F := Ideal) (constant (F := Ideal) S_ .f32 0x3727C5AC#32)) (ix2 r (0 : Fin 1))) = _
  refine congrArg Ideal.rsqrt ?_
  refine (addf_apply _ _ _).trans ?_
  exact congrArg₂ (· + ·) (varCol_apply h r) (colOf_apply _ r)

end Cert.ReferenceIdeal.RefRead

end
-- ==== Proof.RefRead.lean ====
/-
  The reference's term, read index by index, is the specification: row r of the result is the normalization of the
  three layers of row r of the node features and of the two aggregated arrays.
-/
import proofs.«120922_j52510270161469_1_alg».proof.Proof.RefTerm
import proofs.«120922_j52510270161469_1_alg».proof.Proof.Spec
import proofs.«120922_j52510270161469_1_alg».proof.Proof.RefReadLayers
import proofs.«120922_j52510270161469_1_alg».proof.Proof.RefReadNorm

noncomputable section

namespace Cert.ReferenceIdeal.RefRead

open Cert.ReferenceIdeal Idealize.ShloMosaic Idealize.ShloMosaic.ValueIdx
open Cert.ReferenceIdeal.Facts₀ Cert.ReferenceIdeal.Facts
open Cert.ReferenceIdeal.RefValue
open scoped BigOperators

variable [Cert.ReferenceIdeal.Facts]

/-- The reference's result at (r, q). -/
theorem refOut_apply (a0 : Arr (F := Ideal) S100000x128) (a1 : Arr (F := Ideal) S400000x128)
    (a2 : Arr (F := Ideal) S200000x128) (a3 : IArr (F := Ideal) S400000) (a4 : IArr (F := Ideal) S200000)
    (a5 : Arr (F := Ideal) S384x128) (a6 : Arr (F := Ideal) S128) (a7 : Arr (F := Ideal) S128x128)
    (a8 : Arr (F := Ideal) S128) (a9 : Arr (F := Ideal) S128x128) (a10 a11 a12 : Arr (F := Ideal) S128)
    (r : Fin 100000) (q : Fin 128) :
    refOut (F := Ideal) a0 a1 a2 a3 a4 a5 a6 a7 a8 a9 a10 a11 a12 (ix2 r q)
      = Cert.Spec.outArr a0 (scatM (F := Ideal) a3 a1) (scatW (F := Ideal) a4 a2) a5 a6 a7 a8 a9 a10 a11 a12 (ix2 r q) := by
  show _ = Cert.Spec.rowOut (fun k => a0 (ix2 r k)) (fun k => scatM (F := Ideal) a3 a1 (ix2 r k))
    (fun k => scatW (F := Ideal) a4 a2 (ix2 r k)) (fun k q => a5 (ix2 k q)) (fun q => a6 (ix1 q))
    (fun k q => a7 (ix2 k q)) (fun q => a8 (ix1 q)) (fun k q => a9 (ix2 k q)) (fun q => a10 (ix1 q))
    (fun q => a11 (ix1 q)) (fun q => a12 (ix1 q)) q
  unfold refOut Cert.Spec.rowOut
  refine (normed_apply _ a11 a12 r q).trans ?_
  exact congrArg (fun h => Cert.Spec.lnorm h (fun q => a11 (ix1 q)) (fun q => a12 (ix1 q)) q)
    (mlp_row a0 (scatM (F := Ideal) a3 a1) (scatW (F := Ideal) a4 a2) a5 a6 a7 a8 a9 a10 r)

/-- The reference's result is the specification's array of the node features, the two aggregated arrays and the
    weights. -/
theorem refOut_eq (a0 : Arr (F := Ideal) S100000x128) (a1 : Arr (F := Ideal) S400000x128)
    (a2 : Arr (F := Ideal) S200000x128) (a3 : IArr (F := Ideal) S400000) (a4 : IArr (F := Ideal) S200000)
    (a5 : Arr (F := Ideal) S384x128) (a6 : Arr (F := Ideal) S128) (a7 : Arr (F := Ideal) S128x128)
    (a8 : Arr (F := Ideal) S128) (a9 : Arr (F := Ideal) S128x128) (a10 a11 a12 : Arr (F := Ideal) S128) :
    RefValue.refOut (F := Ideal) a0 a1 a2 a3 a4 a5 a6 a7 a8 a9 a10 a11 a12
      = Cert.Spec.outArr a0 (RefValue.scatM (F := Ideal) a3 a1) (RefValue.scatW (F := Ideal) a4 a2) a5 a6 a7 a8 a9 a10 a11 a12 := by
  funext i
  rw [eq_ix2 i]
  exact refOut_apply a0 a1 a2 a3 a4 a5 a6 a7 a8 a9 a10 a11 a12 (i 0) (i 1)

end Cert.ReferenceIdeal.RefRead

end
-- ==== Proof.lean ====
/-
  A graph network's node update, as a tiled kernel and as plain array code, computes the same array on the extended
  reals.

  Both programs first add the rows of the two edge arrays into the rows their index arrays name (two scatter-adds
  into the zero array). The reference then sets the node features and the two aggregates side by side (384 columns),
  multiplies by the 384 x 128 matrix W1, adds b1 and takes the maximum with zero; the kernel instead multiplies each of
  the three 128-column arrays by its own block of 128 rows of W1 and adds the three products, (x + y) + z. A sum over
  384 terms is the sum of its three consecutive blocks of 128 — associativity and commutativity of addition, which
  hold on the extended reals with no finiteness assumption — so the first layers agree. Two more layers (the second
  with a maximum, the third without) and the normalization of each row — subtract the mean, multiply by the reciprocal
  square root of the mean square of the centred row plus epsilon, scale, shift — are the same operations in both; the
  reference's variance divides by 128 - 0 under a comparison 128 - 0 > 0, which is the division by 128. Rounding the
  matrix operands to a narrower format is the identity on the extended reals.

  The kernel walks the 100000 rows in 50 blocks of 2000; each block of its output is the block of one row-wise
  function of the arrays, and the blocks cover the array (KernelArr over KernelRow). The reference's run ends at its
  composed term (RefRun), which read entry by entry is the same row-wise function (RefRead). The specification they
  meet at is Spec.outArr. The idealization rewrote nothing, so the kernel and its idealization are one text.
-/
import proofs.«120922_j52510270161469_1_alg».proof.Defs
import proofs.«120922_j52510270161469_1_alg».proof.Proof.Gen.Kernel
import proofs.«120922_j52510270161469_1_alg».proof.Proof.Gen.Kernel.Skeleton
import proofs.«120922_j52510270161469_1_alg».proof.Proof.Gen.Kernel.Launch
import proofs.«120922_j52510270161469_1_alg».proof.Proof.Gen.Kernel.Points
import proofs.«120922_j52510270161469_1_alg».proof.Proof.Gen.Kernel.Frame
import proofs.«120922_j52510270161469_1_alg».proof.Proof.Gen.KernelIdeal
import proofs.«120922_j52510270161469_1_alg».proof.Proof.Gen.KernelIdeal.Skeleton
import proofs.«120922_j52510270161469_1_alg».proof.Proof.Gen.KernelIdeal.Launch
import proofs.«120922_j52510270161469_1_alg».proof.Proof.Gen.KernelIdeal.Points
import proofs.«120922_j52510270161469_1_alg».proof.Proof.Gen.KernelIdeal.Frame
import proofs.«120922_j52510270161469_1_alg».proof.Proof.Gen.KernelIdeal.Value
import proofs.«120922_j52510270161469_1_alg».proof.Proof.Gen.ReferenceIdeal
import proofs.«120922_j52510270161469_1_alg».proof.Proof.Gen.Pre_finite_inputs
import proofs.«120922_j52510270161469_1_alg».proof.Proof.KernelArr
import proofs.«120922_j52510270161469_1_alg».proof.Proof.RefRun
import proofs.«120922_j52510270161469_1_alg».proof.Proof.RefRead
import Idealize.ShloMosaic.Adequacy
import Idealize.ShloMosaic.Init

noncomputable section

namespace Cert.Proof.Claims

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel. -/
theorem preserves : Cert.preserves_Kernel_KernelIdeal := trivial

/-- The two scatter-adds are spelt once in each program over that program's own dimension records; the records hold
    the same dimension numbers, so the aggregated arrays are the same arrays. -/
theorem aggM_eq (idx : Cert.ReferenceIdeal.RefValue.IArr (F := Ideal) Cert.ReferenceIdeal.S400000)
    (u : Cert.ReferenceIdeal.RefValue.Arr (F := Ideal) Cert.ReferenceIdeal.S400000x128) :
    Cert.ReferenceIdeal.RefValue.scatM (F := Ideal) idx u = Cert.KernelIdeal.ArrValue.aggM idx u := rfl

theorem aggW_eq (idx : Cert.ReferenceIdeal.RefValue.IArr (F := Ideal) Cert.ReferenceIdeal.S200000)
    (u : Cert.ReferenceIdeal.RefValue.Arr (F := Ideal) Cert.ReferenceIdeal.S200000x128) :
    Cert.ReferenceIdeal.RefValue.scatW (F := Ideal) idx u = Cert.KernelIdeal.ArrValue.aggW idx u := rfl

/-- From memories agreeing on the arguments both idealized programs end with the same result array: the kernel's
    blocks make up the specification's array of the arguments and of the two aggregated arrays, and the reference's
    composed term, read entry by entry, is that same array. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12⟩ := hagree c
  rw [Cert.ReferenceIdeal.RefRead.refOut_eq, h0, h1, h2, h3, h4, h5, h6, h7, h8, h9, h10, h11, h12, aggM_eq, aggW_eq]

end Cert.Proof.Claims

namespace Cert.Proof

open Cert.Proof.Claims

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
